-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel

variable [Facts]

def fn {F : FTy → Type} [FloatOps F] (main_arg0 : FVec F S32x1024x128 .f32) (main_arg1 : FVec F S32x1024x128 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S32x1024x128 .f32 := Host.absf main_arg1
  let main_cst_0 : FVec F S_ .f32 := constant S_ .f32 0x7F800000#32
  let main_v5 : FVec F S32x1024x128 .f32 := broadcastInDim S32x1024x128 ![] bcast_S_S32x1024x128 main_cst_0
  let main_v6 : IVec S32x1024x128 1 := cmpf .olt main_v4 main_v5
  let main_c_1 : IVec S_ 1 := constantI S_ 1 1#1
  let main_v7 : IVec S_ 1 := (fun x v => Host.reduce IntOp.andi x v reducesTo_S32x1024x128_S_d0_1_2 h_S_) main_v6 main_c_1
  let main_v8 : IVec S_ 1 := andi main_v3 main_v7
  main_v8
-- ==== Kernel.lean ====
abbrev S32x1024x128 : Shape := ⟨3, ![32, 1024, 128]⟩
abbrev S32x1x1 : Shape := ⟨3, ![32, 1, 1]⟩
abbrev S1x1024x128 : Shape := ⟨3, ![1, 1024, 128]⟩
abbrev S1x1x1 : Shape := ⟨3, ![1, 1, 1]⟩
abbrev S1x1 : Shape := ⟨2, ![1, 1]⟩
abbrev S1024x128 : Shape := ⟨2, ![1024, 128]⟩
abbrev S2048x128 : Shape := ⟨2, ![2048, 128]⟩
abbrev S2048 : Shape := ⟨1, ![2048]⟩
abbrev S2048x1 : Shape := ⟨2, ![2048, 1]⟩
abbrev S128x2048 : Shape := ⟨2, ![128, 2048]⟩
abbrev S1x2048 : Shape := ⟨2, ![1, 2048]⟩
abbrev S1024x1 : Shape := ⟨2, ![1024, 1]⟩
abbrev S1024x2048 : Shape := ⟨2, ![1024, 2048]⟩
abbrev S1024 : Shape := ⟨1, ![1024]⟩
abbrev S1 : Shape := ⟨1, ![1]⟩
abbrev S1024x1024 : Shape := ⟨2, ![1024, 1024]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S32x1024x128, .f32⟩
  | .hbm, ⟨1, _⟩ => ⟨S32x1024x128, .f32⟩
  | .hbm, ⟨2, _⟩ => ⟨S32x1x1, .f32⟩
  | .hbm, ⟨3, _⟩ => ⟨S_, .f32⟩
  | .hbm, ⟨4, _⟩ => ⟨S_, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c2_i32 : BitVec 32 := 2#32
  let v24 : BitVec 1 := Scalar.cmpi .eq arg1 c2_i32
  let v25 : BitVec 32 := Scalar.extui v24
  let c0_i32_8 : BitVec 32 := 0#32
  let v26 : BitVec 1 := Scalar.cmpi .ne v25 c0_i32_8
  v26

def k0_cond4 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_9 : BitVec 32 := 0#32
  let v29 : BitVec 1 := Scalar.cmpi .ne v28 c0_i32_9
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  concatenates_S1024x128_S1024x128_S2048x128_d0 : Shape.Concatenates [S1024x128, S1024x128] S2048x128 0
  reduces_S2048x128_S2048 : S2048x128.Reduces [1] S2048
  shapeCasts_S2048_S2048x1 : S2048.ShapeCasts S2048x1
  transposes_S2048x128_p1_0_S128x2048 : S2048x128.Transposes [1, 0] S128x2048
  reduces_S128x2048_S2048 : S128x2048.Reduces [0] S2048
  shapeCasts_S2048_S1x2048 : S2048.ShapeCasts S1x2048
  bitsLt_bf16_f32 : FTy.bits .bf16 < FTy.bits .f32
  slices_S2048x128_o0_0_S1024x128 : S2048x128.Slices ![0, 0] S1024x128
  slices_S2048x128_o1024_0_S1024x128 : S2048x128.Slices ![1024, 0] S1024x128
  slices_S2048x1_o0_0_S1024x1 : S2048x1.Slices ![0, 0] S1024x1
  slices_S2048x1_o1024_0_S1024x1 : S2048x1.Slices ![1024, 0] S1024x1
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x2048 : S1x1.Broadcasts S1024x2048
  slices_S1024x2048_o0_0_S1024x1024 : S1024x2048.Slices ![0, 0] S1024x1024
  reduces_S1024x1024_S1024 : S1024x1024.Reduces [1] S1024
  slices_S1024x2048_o0_1024_S1024x1024 : S1024x2048.Slices ![0, 1024] S1024x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S32x1x1_S_d0_1_2 : S32x1x1.ReducesTo [0, 1, 2] S_
  h_S_ : 0 < S_.numel
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x1024x128.size a
  hwx0_0 : ∀ i : grid0.Coords, EltTy.bits .f32 = 32 ∨ (Rect.block (s := S32x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S32x1024x128.size a
  hwx0_1 : ∀ i : grid0.Coords, EltTy.bits .f32 = 32 ∨ (Rect.block (s := S32x1024x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S32x1x1.size a
  hwx0_2 : ∀ i : grid0.Coords, EltTy.bits .f32 = 32 ∨ (Rect.block (s := S32x1x1) S1x1x1.size (cc0_transform_2 i) (hinb0_2 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) && !(k0_cond4 i == 1#1) | ⟨_ + 3, h⟩ => absurd h (Nat.not_lt.2 (Nat.le_add_left _ _))

class Facts : Prop extends Facts₀ where

variable [Facts]
-- ==== ReferenceIdeal.lean ====
abbrev S32x1024x128 : Shape := ⟨3, ![32, 1024, 128]⟩
abbrev S1 : Shape := ⟨1, ![1]⟩
abbrev S_ : Shape := ⟨0, ![]⟩
abbrev S32x2048x128 : Shape := ⟨3, ![32, 2048, 128]⟩
abbrev S32x2048 : Shape := ⟨2, ![32, 2048]⟩
abbrev S32x2048x1 : Shape := ⟨3, ![32, 2048, 1]⟩
abbrev S32x1x2048 : Shape := ⟨3, ![32, 1, 2048]⟩
abbrev S32x2048x2048 : Shape := ⟨3, ![32, 2048, 2048]⟩
abbrev S32x128x2048 : Shape := ⟨3, ![32, 128, 2048]⟩
abbrev S32 : Shape := ⟨1, ![32]⟩
abbrev S1x1 : Shape := ⟨2, ![1, 1]⟩
abbrev S32x1 : Shape := ⟨2, ![32, 1]⟩
abbrev S32x1x2048x2048 : Shape := ⟨4, ![32, 1, 2048, 2048]⟩
abbrev S32x1x1x1 : Shape := ⟨4, ![32, 1, 1, 1]⟩
abbrev S32x1024x1024 : Shape := ⟨3, ![32, 1024, 1024]⟩

abbrev nBuf : Space → Nat
  | .hbm => 71
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S32x1024x128, .f32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S32x2048x128, .f32⟩
  | .hbm, ⟨12, _⟩ => ⟨S32x2048x128, .f32⟩
  | .hbm, ⟨13, _⟩ => ⟨S_, .f32⟩
  | .hbm, ⟨14, _⟩ => ⟨S32x2048, .f32⟩
  | .hbm, ⟨15, _⟩ => ⟨S32x2048x1, .f32⟩
  | .hbm, ⟨16, _⟩ => ⟨S32x1x2048, .f32⟩
  | .hbm, ⟨17, _⟩ => ⟨S32x2048x2048, .f32⟩
  | .hbm, ⟨18, _⟩ => ⟨S32x2048x2048, .f32⟩
  | .hbm, ⟨19, _⟩ => ⟨S32x2048x2048, .f32⟩
  | .hbm, ⟨20, _⟩ => ⟨S32x128x2048, .f32⟩
  | .hbm, ⟨21, _⟩ => ⟨S32x2048x2048, .f32⟩
  | .hbm, ⟨22, _⟩ => ⟨S_, .f32⟩
  | .hbm, ⟨23, _⟩ => ⟨S32x2048x2048, .f32⟩
  | .hbm, ⟨24, _⟩ => ⟨S32x2048x2048, .f32⟩
  | .hbm, ⟨25, _⟩ => ⟨S32x2048x2048, .f32⟩
  | .hbm, ⟨26, _⟩ => ⟨S_, .f32⟩
  | .hbm, ⟨27, _⟩ => ⟨S32x2048x2048, .f32⟩
  | .hbm, ⟨28, _⟩ => ⟨S32x2048x2048, .f32⟩
  | .hbm, ⟨29, _⟩ => ⟨S_, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S1x1, .f32⟩
  | .hbm, ⟨35, _⟩ => ⟨S32x1, .f32⟩
  | .hbm, ⟨36, _⟩ => ⟨S32x1, .f32⟩
  | .hbm, ⟨37, _⟩ => ⟨S32x1, .f32⟩
  | .hbm, ⟨38, _⟩ => ⟨S32x1x2048x2048, .f32⟩
  | .hbm, ⟨39, _⟩ => ⟨S32x1x2048x2048, .f32⟩
  | .hbm, ⟨40, _⟩ => ⟨S32x1x1x1, .f32⟩
  | .hbm, ⟨41, _⟩ => ⟨S32x1x2048x2048, .f32⟩
  | .hbm, ⟨42, _⟩ => ⟨S32x1x2048x2048, .f32⟩
  | .hbm, ⟨43, _⟩ => ⟨S32x1x2048x2048, .f32⟩
  | .hbm, ⟨44, _⟩ => ⟨S_, .f32⟩
  | .hbm, ⟨45, _⟩ => ⟨S32x2048x2048, .f32⟩
  | .hbm, ⟨46, _⟩ => ⟨S32x1024x1024, .f32⟩
  | .hbm, ⟨47, _⟩ => ⟨S_, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S32x1024x1024, .f32⟩
  | .hbm, ⟨53, _⟩ => ⟨S_, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S32x1024x1024, .f32⟩
  | .hbm, ⟨59, _⟩ => ⟨S_, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S_, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_10 : Ref sig .tc := ⟨.hbm, 59, rfl⟩
abbrev main_v45 : Ref sig .tc := ⟨.hbm, 60, rfl⟩
abbrev main_cst_11 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_13 : Ref sig .tc := ⟨.hbm, 69, rfl⟩
abbrev main_v52 : Ref sig .tc := ⟨.hbm, 70, rfl⟩

abbrev nD : Nat := 1
abbrev τ : Topo := Topo.v7x

variable {F : FTy → Type} [FloatOps F]

class Facts₀ : Prop where
  bcast_S_S1 : S_.BroadcastsInDim S1 (![] : Fin 0 → Fin S1.rank)
  concatenates_S32x1024x128_S32x1024x128_S32x2048x128_d1 : Shape.Concatenates [S32x1024x128, S32x1024x128] S32x2048x128 1
  reducesTo_S32x2048x128_S32x2048_d2 : S32x2048x128.ReducesTo [2] S32x2048
  h_S_ : 0 < S_.numel
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  transposes_S32x2048x128_S32x128x2048_0_2_1 : S32x2048x128.Transposes [0, 2, 1] S32x128x2048
  bcast_S_S32x2048x2048 : S_.BroadcastsInDim S32x2048x2048 (![] : Fin 0 → Fin S32x2048x2048.rank)
  reducesTo_S32x2048x2048_S32_d1_2 : S32x2048x2048.ReducesTo [1, 2] S32
  bcast_S_S32 : S_.BroadcastsInDim S32 (![] : Fin 0 → Fin S32.rank)
  bcast_S1_S1x1_1 : S1.BroadcastsInDim S1x1 (![1] : Fin 1 → Fin S1x1.rank)
  bcast_S32_S32x1_0 : S32.BroadcastsInDim S32x1 (![0] : Fin 1 → Fin S32x1.rank)
  bcast_S1x1_S32x1_0_1 : S1x1.BroadcastsInDim S32x1 (![0, 1] : Fin 2 → Fin S32x1.rank)
  bcast_S32x2048x2048_S32x1x2048x2048_0_2_3 : S32x2048x2048.BroadcastsInDim S32x1x2048x2048 (![0, 2, 3] : Fin 3 → Fin S32x1x2048x2048.rank)
  bcast_S32x1_S32x1x1x1_0_1 : S32x1.BroadcastsInDim S32x1x1x1 (![0, 1] : Fin 2 → Fin S32x1x1x1.rank)
  bcast_S32x1x1x1_S32x1x2048x2048_0_1_2_3 : S32x1x1x1.BroadcastsInDim S32x1x2048x2048 (![0, 1, 2, 3] : Fin 4 → Fin S32x1x2048x2048.rank)
  reducesTo_S32x1x2048x2048_S32x2048x2048_d1 : S32x1x2048x2048.ReducesTo [1] S32x2048x2048
  slices_S32x2048x2048_S32x1024x1024_0_0_0 : S32x2048x2048.Slices ![0, 0, 0] S32x1024x1024
  reducesTo_S32x1024x1024_S32_d1_2 : S32x1024x1024.ReducesTo [1, 2] S32
  slices_S32x2048x2048_S32x1024x1024_0_0_1024 : S32x2048x2048.Slices ![0, 0, 1024] S32x1024x1024
  slices_S32x2048x2048_S32x1024x1024_0_1024_1024 : S32x2048x2048.Slices ![0, 1024, 1024] S32x1024x1024
  reducesTo_S32_S_d0 : S32.ReducesTo [0] S_
  dot_S32x2048x128_S32x128x2048_S32x2048x2048_2_1_1_2_0_0_wf : DotDims.WF S32x2048x128 S32x128x2048 S32x2048x2048 [2] [1] [1] [2] [0] [0]

variable [Facts₀]

def dot_S32x2048x128_S32x128x2048_S32x2048x2048_2_1_1_2_0_0 : DotDims S32x2048x128 S32x128x2048 S32x2048x2048 where
  lhsContracting := [2]
  rhsContracting := [1]
  lhsNonContracting := [1]
  rhsNonContracting := [2]
  lhsBatch := [0]
  rhsBatch := [0]
  wf := dot_S32x2048x128_S32x128x2048_S32x2048x2048_2_1_1_2_0_0_wf

class Facts : Prop extends Facts₀ where

variable [Facts]
-- ==== Proof.KbPhases.lean ====
/-
  The kernel's grid is 32 batches × 4 phases; the phase is the grid's second coordinate, which at the linear
  point t is t % 4. Phase 0 stores the one-cell scratch with the sum, over the rows of X, of the clamped squared
  distances to every row of Z = [X; Y]; phase 1 adds the same sum over the rows of Y and divides by n² − n: the
  bandwidth. Phase 2 stores the one-cell output block with (Σ k over X×X − 2 Σ k over X×Y) / S², k = exp(−d²/bw);
  phase 3 adds Σ k over Y×Y / S² to it. Here: the four branch conditions decided over the grid, the output
  window's schedule (nothing stored into it in phases 0 and 1, written back after phase 3 only), the staging
  memrefs the body is called with at a point, and the region's invariant opened at the scratch cell.
-/
import proofs.«107039_j55843164782710_1_alg».proof.Proof.Gen.Kernel.Frame
import proofs.«107039_j55843164782710_1_alg».proof.Proof.Gen.Kernel.Skeleton

set_option maxRecDepth 16384

noncomputable section

namespace Cert.Kernel.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The four branch conditions, as the body spells them, and their closed forms -/

abbrev inPhase0 (i : grid0.Coords) : Prop := (Scalar.cmpi .ne (Scalar.extui (Scalar.cmpi .eq (BitVec.ofNat 32 (i 1).val) 0#32)) 0#32) = 1#1
abbrev inPhase1 (i : grid0.Coords) : Prop := (Scalar.cmpi .ne (Scalar.extui (Scalar.cmpi .eq (BitVec.ofNat 32 (i 1).val) 1#32)) 0#32) = 1#1
abbrev inPhase2 (i : grid0.Coords) : Prop := k0_cond3 i = 1#1
abbrev inPhase3 (i : grid0.Coords) : Prop := k0_cond4 i = 1#1

theorem phase0_iff : ∀ t : Fin cfg0.N, inPhase0 (grid0.coords t) ↔ t.val % 4 = 0 :=
  (by decide +kernel : ∀ t : Fin grid0.N, inPhase0 (grid0.coords t) ↔ t.val % 4 = 0)
theorem phase1_iff : ∀ t : Fin cfg0.N, inPhase1 (grid0.coords t) ↔ t.val % 4 = 1 :=
  (by decide +kernel : ∀ t : Fin grid0.N, inPhase1 (grid0.coords t) ↔ t.val % 4 = 1)
theorem phase2_iff : ∀ t : Fin cfg0.N, inPhase2 (grid0.coords t) ↔ t.val % 4 = 2 :=
  (by decide +kernel : ∀ t : Fin grid0.N, inPhase2 (grid0.coords t) ↔ t.val % 4 = 2)
theorem phase3_iff : ∀ t : Fin cfg0.N, inPhase3 (grid0.coords t) ↔ t.val % 4 = 3 :=
  (by decide +kernel : ∀ t : Fin grid0.N, inPhase3 (grid0.coords t) ↔ t.val % 4 = 3)

/-! ## The windows' schedule -/

/-- The two input windows are stored into by no phase and are never idle. -/
theorem x_live : ∀ t : Fin cfg0.N, cfg0.idle 0 (grid0.coords t) = false := by decide +kernel
theorem y_live : ∀ t : Fin cfg0.N, cfg0.idle 1 (grid0.coords t) = false := by decide +kernel
/-- The output window is idle exactly in phases 0 and 1. -/
theorem out_idle : ∀ t : Fin cfg0.N, t.val % 4 = 0 ∨ t.val % 4 = 1 → cfg0.idle 2 (grid0.coords t) = true :=
  (by decide +kernel : ∀ t : Fin grid0.N, t.val % 4 = 0 ∨ t.val % 4 = 1 → cfg0.idle 2 (grid0.coords t) = true)
theorem out_live : ∀ t : Fin cfg0.N, t.val % 4 = 2 ∨ t.val % 4 = 3 → cfg0.idle 2 (grid0.coords t) = false :=
  (by decide +kernel : ∀ t : Fin grid0.N, t.val % 4 = 2 ∨ t.val % 4 = 3 → cfg0.idle 2 (grid0.coords t) = false)
/-- Its block is written back after phase 3 and at no other point. -/
theorem out_noflush (t : Fin cfg0.N) (h : t.val % 4 ≠ 3) : (cfg0.win 2).flush t = false := by
  cases hf : (cfg0.win 2).flush t
  · rfl
  · exact absurd ((flush0_2 t).mp hf) h
theorem out_flush (t : Fin cfg0.N) (h : t.val % 4 = 3) : (cfg0.win 2).flush t = true := (flush0_2 t).mpr h
/-- The output window is an output: it is never fetched. -/
theorem out_nofetch : ∀ t : Fin cfg0.N, (cfg0.win 2).fetch t = false :=
  (by decide +kernel : ∀ t : Fin grid0.N, (cfg0.win 2).fetch t = false)

/-! ## The memrefs the body is called with at a point -/

abbrev xMem (t : Fin cfg0.N) : Memref sig .tc .vmem S1x1024x128 .f32 := win0_0.stage (cfg0.slots t 0)
abbrev xMem_whole (t : Fin cfg0.N) : (xMem t).IsWhole := hstage0_0 ((cfg0.slots t 0).cast nbuf0_0)
abbrev yMem (t : Fin cfg0.N) : Memref sig .tc .vmem S1x1024x128 .f32 := win0_1.stage (cfg0.slots t 1)
abbrev yMem_whole (t : Fin cfg0.N) : (yMem t).IsWhole := hstage0_1 ((cfg0.slots t 1).cast nbuf0_1)
abbrev oMem (t : Fin cfg0.N) : Memref sig .tc .vmem S1x1x1 .f32 := win0_2.stage (cfg0.slots t 2)
abbrev oMem_whole (t : Fin cfg0.N) : (oMem t).IsWhole := hstage0_2 ((cfg0.slots t 2).cast nbuf0_2)
/-- The scratch cell: a whole scoped buffer of the kernel's own. -/
abbrev accMem : Memref sig .tc .vmem S1x1 .f32 := Memref.whole cc0_scratch0
abbrev accView : View sig .tc .vmem S1x1 .f32 := accMem.view
abbrev oView (t : Fin cfg0.N) : View sig .tc .vmem S1x1x1 .f32 := (oMem t).view

/-- The region's plain invariant is the scratch cell owned at some contents beside the generator register. -/
theorem plainInv_eq (c : Dev nD) :
    (Pipeline.ΦA spec0 c : sProp 𝕄)
      = iprop(iprop((∃ d, owns (c : Thread nD τ) accMem fullShare d)) ∗ (∃ r, prngReg c r)) := by
  unfold Pipeline.ΦA; rw [scopedRest0_eq]; simp only [accMem, owns_whole]; try rfl

end Cert.Kernel.Mmd

end
-- ==== Proof.KbRuns.lean ====
/-
  The body at a point of each phase, run symbolically on whole staging memrefs: the two input blocks are only
  read; phase 0 overwrites the scratch cell, phase 1 reads it and overwrites it, phase 2 reads it and overwrites
  the output cell, phase 3 reads both and overwrites the output cell. For each phase first the run itself, the
  cell's new contents found as the list of pieces its stores leave; then that one covering store leaves exactly
  the store's operand, a pure term of what the body loaded; then the two combined into a triple whose post names
  that term.
-/
import proofs.«107039_j55843164782710_1_alg».proof.Proof.KbPhases
import Idealize.ShloMosaic.Lib.Pipeline.Value

set_option maxRecDepth 16384

noncomputable section

namespace Cert.Kernel.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

private theorem z2 : (![0, 0] : Fin 2 → ℕ) = fun _ => 0 := by funext a; fin_cases a <;> rfl
private theorem z3 : (![0, 0, 0] : Fin 3 → ℕ) = fun _ => 0 := by funext a; fin_cases a <;> rfl

/-! ## Phase 0: the scratch cell := the X rows' sum -/

set_option maxHeartbeats 1000000 in
noncomputable def run0 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : inPhase0 i) (hc1 : ¬inPhase1 i) (hc2 : ¬inPhase2 i) (hc3 : ¬inPhase3 i)
    (x y : Vec F S1x1024x128 .f32) :
    { LS : List (View.Piece (Elt F) S1x1 .f32) //
      ∀ (E : Set ℕ) (K : PUnit → sProp 𝕄),
        iprop(owns (c : Thread nD τ) arg2 fullShare x ∗ owns (c : Thread nD τ) arg3 fullShare y ∗ (∃ d, owns (c : Thread nD τ) arg5 fullShare d)
            ∗ (iprop(owns (c : Thread nD τ) arg2 fullShare x ∗ owns (c : Thread nD τ) arg3 fullShare y ∗ (∃ f, arg5.view.loc (c : Thread nD τ) ↦[arg5.view.set]{fullShare} arg5.view.writes (Elt F) f LS)) -∗ K ⟨⟩))
          ⊢ wp frame (wpE (defs₀ (F := F)) Variants.none c none) E (cc0__mmd_kernel i arg2 harg2 arg3 harg3 arg4 harg4 arg5 harg5) K } := by
  refine ⟨?_, fun E K => ?run⟩
  case run =>
    simp only [cc0__mmd_kernel_eq_skeleton]; unfold cc0__mmd_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    iexists _; iexact HS

theorem run0_cover (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : inPhase0 i) (hc1 : ¬inPhase1 i) (hc2 : ¬inPhase2 i) (hc3 : ¬inPhase3 i) (x y : Vec F S1x1024x128 .f32) (j : S1x1.Idx) :
    ∃ pc ∈ (run0 c i arg2 harg2 arg3 harg3 arg4 harg4 arg5 harg5 hc0 hc1 hc2 hc3 x y).1, j ∈ pc.1.set :=
  View.cover_of_tiledL (run0 c i arg2 harg2 arg3 harg3 arg4 harg4 arg5 harg5 hc0 hc1 hc2 hc3 x y).1 S1x1.size (by sl_kernel_rfl) j

theorem run0_leaves (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : inPhase0 i) (hc1 : ¬inPhase1 i) (hc2 : ¬inPhase2 i) (hc3 : ¬inPhase3 i) (x y : Vec F S1x1024x128 .f32) :
    View.canon (run0 c i arg2 harg2 arg3 harg3 arg4 harg4 arg5 harg5 hc0 hc1 hc2 hc3 x y).1 = k0_pay11 x y := by
  unfold run0; dsimp only; sl_unfold_words
  rw [View.canon_unit_zero (S := S1x1) z2]
  simp only [View.readAt_eq_ld, harg2.read_unread, harg3.read_unread, View.ld_unit_zero (S := S1x1024x128) z3]

/-- Phase 0 as a triple: the inputs kept, the scratch cell at the first store's operand. -/
theorem phase0 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : inPhase0 i) (hc1 : ¬inPhase1 i) (hc2 : ¬inPhase2 i) (hc3 : ¬inPhase3 i) (x y : Vec F S1x1024x128 .f32) (E : Set ℕ) (K : PUnit → sProp 𝕄) :
    iprop(owns (c : Thread nD τ) arg2 fullShare x ∗ owns (c : Thread nD τ) arg3 fullShare y ∗ (∃ d, owns (c : Thread nD τ) arg5 fullShare d)
        ∗ (iprop(owns (c : Thread nD τ) arg2 fullShare x ∗ owns (c : Thread nD τ) arg3 fullShare y ∗ owns (c : Thread nD τ) arg5 fullShare (k0_pay11 x y)) -∗ K ⟨⟩))
      ⊢ wp frame (wpE (defs₀ (F := F)) Variants.none c none) E (cc0__mmd_kernel i arg2 harg2 arg3 harg3 arg4 harg4 arg5 harg5) K := by
  iintro ⟨H0, H1, HS, Hk⟩
  iapply ((run0 c i arg2 harg2 arg3 harg3 arg4 harg4 arg5 harg5 hc0 hc1 hc2 hc3 x y).2 E K)
  isplitl [H0]; · iexact H0
  isplitl [H1]; · iexact H1
  isplitl [HS]; · iexact HS
  iintro ⟨H0, H1, ⟨%f, HS⟩⟩
  iapply Hk
  isplitl [H0]; · iexact H0
  isplitl [H1]; · iexact H1
  unfold owns; iexists _; isplitr
  swap; · iexact HS
  ipureintro
  exact (View.read_writes_eq_canon _ _ _ (run0_cover c i arg2 harg2 arg3 harg3 arg4 harg4 arg5 harg5 hc0 hc1 hc2 hc3 x y)).trans (run0_leaves c i arg2 harg2 arg3 harg3 arg4 harg4 arg5 harg5 hc0 hc1 hc2 hc3 x y)

/-! ## Phase 1: the scratch cell := (it + the Y rows' sum) / (n² − n) -/

set_option maxHeartbeats 1000000 in
noncomputable def run1 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : inPhase1 i) (hc2 : ¬inPhase2 i) (hc3 : ¬inPhase3 i)
    (x y : Vec F S1x1024x128 .f32) (a : Vec F S1x1 .f32) :
    { LS : List (View.Piece (Elt F) S1x1 .f32) //
      ∀ (E : Set ℕ) (K : PUnit → sProp 𝕄),
        iprop(owns (c : Thread nD τ) arg2 fullShare x ∗ owns (c : Thread nD τ) arg3 fullShare y ∗ owns (c : Thread nD τ) arg5 fullShare a
            ∗ (iprop(owns (c : Thread nD τ) arg2 fullShare x ∗ owns (c : Thread nD τ) arg3 fullShare y ∗ (∃ f, arg5.view.loc (c : Thread nD τ) ↦[arg5.view.set]{fullShare} arg5.view.writes (Elt F) f LS)) -∗ K ⟨⟩))
          ⊢ wp frame (wpE (defs₀ (F := F)) Variants.none c none) E (cc0__mmd_kernel i arg2 harg2 arg3 harg3 arg4 harg4 arg5 harg5) K } := by
  refine ⟨?_, fun E K => ?run⟩
  case run =>
    simp only [cc0__mmd_kernel_eq_skeleton]; unfold cc0__mmd_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg5.eq_unread hfs
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    iexists _; iexact HS

theorem run1_cover (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : inPhase1 i) (hc2 : ¬inPhase2 i) (hc3 : ¬inPhase3 i) (x y : Vec F S1x1024x128 .f32) (a : Vec F S1x1 .f32) (j : S1x1.Idx) :
    ∃ pc ∈ (run1 c i arg2 harg2 arg3 harg3 arg4 harg4 arg5 harg5 hc0 hc1 hc2 hc3 x y a).1, j ∈ pc.1.set :=
  View.cover_of_tiledL (run1 c i arg2 harg2 arg3 harg3 arg4 harg4 arg5 harg5 hc0 hc1 hc2 hc3 x y a).1 S1x1.size (by sl_kernel_rfl) j

theorem run1_leaves (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : inPhase1 i) (hc2 : ¬inPhase2 i) (hc3 : ¬inPhase3 i) (x y : Vec F S1x1024x128 .f32) (a : Vec F S1x1 .f32) :
    View.canon (run1 c i arg2 harg2 arg3 harg3 arg4 harg4 arg5 harg5 hc0 hc1 hc2 hc3 x y a).1 = k0_pay12 x y a := by
  unfold run1; dsimp only; sl_unfold_words
  rw [View.canon_unit_zero (S := S1x1) z2]
  simp only [View.readAt_eq_ld, harg2.read_unread, harg3.read_unread, harg5.read_unread, View.ld_unit_zero (S := S1x1024x128) z3,
    View.ld_unit_zero (S := S1x1) z2]

/-- Phase 1 as a triple: the scratch cell found at `a` is left at the second store's operand. -/
theorem phase1 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : inPhase1 i) (hc2 : ¬inPhase2 i) (hc3 : ¬inPhase3 i) (x y : Vec F S1x1024x128 .f32) (a : Vec F S1x1 .f32) (E : Set ℕ) (K : PUnit → sProp 𝕄) :
    iprop(owns (c : Thread nD τ) arg2 fullShare x ∗ owns (c : Thread nD τ) arg3 fullShare y ∗ owns (c : Thread nD τ) arg5 fullShare a
        ∗ (iprop(owns (c : Thread nD τ) arg2 fullShare x ∗ owns (c : Thread nD τ) arg3 fullShare y ∗ owns (c : Thread nD τ) arg5 fullShare (k0_pay12 x y a)) -∗ K ⟨⟩))
      ⊢ wp frame (wpE (defs₀ (F := F)) Variants.none c none) E (cc0__mmd_kernel i arg2 harg2 arg3 harg3 arg4 harg4 arg5 harg5) K := by
  iintro ⟨H0, H1, HS, Hk⟩
  iapply ((run1 c i arg2 harg2 arg3 harg3 arg4 harg4 arg5 harg5 hc0 hc1 hc2 hc3 x y a).2 E K)
  isplitl [H0]; · iexact H0
  isplitl [H1]; · iexact H1
  isplitl [HS]; · iexact HS
  iintro ⟨H0, H1, ⟨%f, HS⟩⟩
  iapply Hk
  isplitl [H0]; · iexact H0
  isplitl [H1]; · iexact H1
  unfold owns; iexists _; isplitr
  swap; · iexact HS
  ipureintro
  exact (View.read_writes_eq_canon _ _ _ (run1_cover c i arg2 harg2 arg3 harg3 arg4 harg4 arg5 harg5 hc0 hc1 hc2 hc3 x y a)).trans (run1_leaves c i arg2 harg2 arg3 harg3 arg4 harg4 arg5 harg5 hc0 hc1 hc2 hc3 x y a)

/-! ## Phase 2: the output cell := (Σ k over X×X − 2 Σ k over X×Y) / S² -/

set_option maxHeartbeats 1000000 in
noncomputable def run2 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : inPhase2 i) (hc3 : ¬inPhase3 i)
    (x y : Vec F S1x1024x128 .f32) (a : Vec F S1x1 .f32) :
    { LO : List (View.Piece (Elt F) S1x1x1 .f32) //
      ∀ (E : Set ℕ) (K : PUnit → sProp 𝕄),
        iprop(owns (c : Thread nD τ) arg2 fullShare x ∗ owns (c : Thread nD τ) arg3 fullShare y ∗ (∃ d, owns (c : Thread nD τ) arg4 fullShare d) ∗ owns (c : Thread nD τ) arg5 fullShare a
            ∗ (iprop(owns (c : Thread nD τ) arg2 fullShare x ∗ owns (c : Thread nD τ) arg3 fullShare y ∗ (∃ f, arg4.view.loc (c : Thread nD τ) ↦[arg4.view.set]{fullShare} arg4.view.writes (Elt F) f LO) ∗ owns (c : Thread nD τ) arg5 fullShare a) -∗ K ⟨⟩))
          ⊢ wp frame (wpE (defs₀ (F := F)) Variants.none c none) E (cc0__mmd_kernel i arg2 harg2 arg3 harg3 arg4 harg4 arg5 harg5) K } := by
  refine ⟨?_, fun E K => ?run⟩
  case run =>
    simp only [cc0__mmd_kernel_eq_skeleton]; unfold cc0__mmd_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; isplitr; · ipureintro; exact harg5.read_unread _
    iexact HS

theorem run2_cover (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : inPhase2 i) (hc3 : ¬inPhase3 i) (x y : Vec F S1x1024x128 .f32) (a : Vec F S1x1 .f32) (j : S1x1x1.Idx) :
    ∃ pc ∈ (run2 c i arg2 harg2 arg3 harg3 arg4 harg4 arg5 harg5 hc0 hc1 hc2 hc3 x y a).1, j ∈ pc.1.set :=
  View.cover_of_tiledL (run2 c i arg2 harg2 arg3 harg3 arg4 harg4 arg5 harg5 hc0 hc1 hc2 hc3 x y a).1 S1x1x1.size (by sl_kernel_rfl) j

theorem run2_leaves (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : inPhase2 i) (hc3 : ¬inPhase3 i) (x y : Vec F S1x1024x128 .f32) (a : Vec F S1x1 .f32) :
    View.canon (run2 c i arg2 harg2 arg3 harg3 arg4 harg4 arg5 harg5 hc0 hc1 hc2 hc3 x y a).1 = k0_pay13 x y a := by
  unfold run2; dsimp only; sl_unfold_words
  rw [View.canon_unit_zero (S := S1x1x1) z3]
  simp only [View.readAt_eq_ld, harg2.read_unread, harg3.read_unread, harg5.read_unread, View.ld_unit_zero (S := S1x1024x128) z3,
    View.ld_unit_zero (S := S1x1) z2]

/-- Phase 2 as a triple: the output cell, found at anything, is left at the third store's operand; the scratch cell kept. -/
theorem phase2 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : inPhase2 i) (hc3 : ¬inPhase3 i) (x y : Vec F S1x1024x128 .f32) (a : Vec F S1x1 .f32) (E : Set ℕ) (K : PUnit → sProp 𝕄) :
    iprop(owns (c : Thread nD τ) arg2 fullShare x ∗ owns (c : Thread nD τ) arg3 fullShare y ∗ (∃ d, owns (c : Thread nD τ) arg4 fullShare d) ∗ owns (c : Thread nD τ) arg5 fullShare a
        ∗ (iprop(owns (c : Thread nD τ) arg2 fullShare x ∗ owns (c : Thread nD τ) arg3 fullShare y ∗ owns (c : Thread nD τ) arg4 fullShare (k0_pay13 x y a) ∗ owns (c : Thread nD τ) arg5 fullShare a) -∗ K ⟨⟩))
      ⊢ wp frame (wpE (defs₀ (F := F)) Variants.none c none) E (cc0__mmd_kernel i arg2 harg2 arg3 harg3 arg4 harg4 arg5 harg5) K := by
  iintro ⟨H0, H1, H2, HS, Hk⟩
  iapply ((run2 c i arg2 harg2 arg3 harg3 arg4 harg4 arg5 harg5 hc0 hc1 hc2 hc3 x y a).2 E K)
  isplitl [H0]; · iexact H0
  isplitl [H1]; · iexact H1
  isplitl [H2]; · iexact H2
  isplitl [HS]; · iexact HS
  iintro ⟨H0, H1, ⟨%f, H2⟩, HS⟩
  iapply Hk
  isplitl [H0]; · iexact H0
  isplitl [H1]; · iexact H1
  isplitl [H2]
  · unfold owns; iexists _; isplitr
    swap; · iexact H2
    ipureintro
    exact (View.read_writes_eq_canon _ _ _ (run2_cover c i arg2 harg2 arg3 harg3 arg4 harg4 arg5 harg5 hc0 hc1 hc2 hc3 x y a)).trans (run2_leaves c i arg2 harg2 arg3 harg3 arg4 harg4 arg5 harg5 hc0 hc1 hc2 hc3 x y a)
  iexact HS

/-! ## Phase 3: the output cell := it + Σ k over Y×Y / S² -/

set_option maxHeartbeats 1000000 in
noncomputable def run3 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : ¬inPhase2 i) (hc3 : inPhase3 i)
    (x y : Vec F S1x1024x128 .f32) (a : Vec F S1x1 .f32) (o : Vec F S1x1x1 .f32) :
    { LO : List (View.Piece (Elt F) S1x1x1 .f32) //
      ∀ (E : Set ℕ) (K : PUnit → sProp 𝕄),
        iprop(owns (c : Thread nD τ) arg2 fullShare x ∗ owns (c : Thread nD τ) arg3 fullShare y ∗ owns (c : Thread nD τ) arg4 fullShare o ∗ owns (c : Thread nD τ) arg5 fullShare a
            ∗ (iprop(owns (c : Thread nD τ) arg2 fullShare x ∗ owns (c : Thread nD τ) arg3 fullShare y ∗ (∃ f, arg4.view.loc (c : Thread nD τ) ↦[arg4.view.set]{fullShare} arg4.view.writes (Elt F) f LO) ∗ owns (c : Thread nD τ) arg5 fullShare a) -∗ K ⟨⟩))
          ⊢ wp frame (wpE (defs₀ (F := F)) Variants.none c none) E (cc0__mmd_kernel i arg2 harg2 arg3 harg3 arg4 harg4 arg5 harg5) K } := by
  refine ⟨?_, fun E K => ?run⟩
  case run =>
    simp only [cc0__mmd_kernel_eq_skeleton]; unfold cc0__mmd_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; isplitr; · ipureintro; exact harg5.read_unread _
    iexact HS

theorem run3_cover (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : ¬inPhase2 i) (hc3 : inPhase3 i) (x y : Vec F S1x1024x128 .f32) (a : Vec F S1x1 .f32) (o : Vec F S1x1x1 .f32) (j : S1x1x1.Idx) :
    ∃ pc ∈ (run3 c i arg2 harg2 arg3 harg3 arg4 harg4 arg5 harg5 hc0 hc1 hc2 hc3 x y a o).1, j ∈ pc.1.set :=
  View.cover_of_tiledL (run3 c i arg2 harg2 arg3 harg3 arg4 harg4 arg5 harg5 hc0 hc1 hc2 hc3 x y a o).1 S1x1x1.size (by sl_kernel_rfl) j

theorem run3_leaves (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : ¬inPhase2 i) (hc3 : inPhase3 i) (x y : Vec F S1x1024x128 .f32) (a : Vec F S1x1 .f32) (o : Vec F S1x1x1 .f32) :
    View.canon (run3 c i arg2 harg2 arg3 harg3 arg4 harg4 arg5 harg5 hc0 hc1 hc2 hc3 x y a o).1 = k0_pay14 x y a o := by
  unfold run3; dsimp only; sl_unfold_words
  rw [View.canon_unit_zero (S := S1x1x1) z3]
  simp only [View.readAt_eq_ld, harg2.read_unread, harg3.read_unread, harg4.read_unread, harg5.read_unread, View.ld_unit_zero (S := S1x1024x128) z3,
    View.ld_unit_zero (S := S1x1) z2, View.ld_unit_zero (S := S1x1x1) z3]

/-- Phase 3 as a triple: the output cell found at `o` is left at the fourth store's operand; the scratch cell kept. -/
theorem phase3 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : ¬inPhase2 i) (hc3 : inPhase3 i) (x y : Vec F S1x1024x128 .f32) (a : Vec F S1x1 .f32) (o : Vec F S1x1x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare a
        ∗ (iprop(owns (c : Thread nD τ) arg2 fullShare x ∗ owns (c : Thread nD τ) arg3 fullShare y ∗ owns (c : Thread nD τ) arg4 fullShare (k0_pay14 x y a o) ∗ owns (c : Thread nD τ) arg5 fullShare a) -∗ K ⟨⟩))
      ⊢ wp frame (wpE (defs₀ (F := F)) Variants.none c none) E (cc0__mmd_kernel i arg2 harg2 arg3 harg3 arg4 harg4 arg5 harg5) K := by
  iintro ⟨H0, H1, H2, HS, Hk⟩
  iapply ((run3 c i arg2 harg2 arg3 harg3 arg4 harg4 arg5 harg5 hc0 hc1 hc2 hc3 x y a o).2 E K)
  isplitl [H0]; · iexact H0
  isplitl [H1]; · iexact H1
  isplitl [H2]; · iexact H2
  isplitl [HS]; · iexact HS
  iintro ⟨H0, H1, ⟨%f, H2⟩, HS⟩
  iapply Hk
  isplitl [H0]; · iexact H0
  isplitl [H1]; · iexact H1
  isplitl [H2]
  · unfold owns; iexists _; isplitr
    swap; · iexact H2
    ipureintro
    exact (View.read_writes_eq_canon _ _ _ (run3_cover c i arg2 harg2 arg3 harg3 arg4 harg4 arg5 harg5 hc0 hc1 hc2 hc3 x y a o)).trans (run3_leaves c i arg2 harg2 arg3 harg3 arg4 harg4 arg5 harg5 hc0 hc1 hc2 hc3 x y a o)
  iexact HS

end Cert.Kernel.Mmd

end
-- ==== Proof.KbData.lean ====
/-
  The pipeline's proof data. After the body at point t the scratch cell holds, by recursion on t: in phase 0 the
  first store's operand of the point's two input blocks; in phase 1 the second store's operand of the blocks and of
  what the cell held; in phases 2 and 3 what it held. The output cell holds: in phase 2 the third store's operand
  of the blocks and the scratch cell; in phase 3 the fourth store's operand of the blocks, the scratch cell and
  what the output cell held (the block is written back only after phase 3, so phase 3 finds what phase 2 left);
  in phases 0 and 1 nothing is stored into it and the body hands it back as found. Between two points the region's
  invariant owns the scratch cell at these contents. From this: the body obligation at every point, by the phase's
  triple, and the run of the whole program with every array of the pipeline named.
-/
import proofs.«107039_j55843164782710_1_alg».proof.Proof.KbRuns

set_option maxRecDepth 16384

noncomputable section

namespace Cert.Kernel.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cells, point by point -/

/-- The scratch cell after the body at position `n`. -/
def accAt (c : Dev nD) : (n : ℕ) → n < cfg0.N → Vec F S1x1 .f32
  | 0, hn => k0_pay11 (iblk m c 0 ⟨0, hn⟩) (iblk m c 1 ⟨0, hn⟩)
  | n + 1, hn =>
    if (n + 1) % 4 = 0 then k0_pay11 (iblk m c 0 ⟨n + 1, hn⟩) (iblk m c 1 ⟨n + 1, hn⟩)
    else if (n + 1) % 4 = 1 then k0_pay12 (iblk m c 0 ⟨n + 1, hn⟩) (iblk m c 1 ⟨n + 1, hn⟩) (accAt c n (Nat.lt_of_succ_lt hn))
    else accAt c n (Nat.lt_of_succ_lt hn)

theorem accAt_ph0 (c : Dev nD) (t : Fin cfg0.N) (h : t.val % 4 = 0) :
    accAt m c t.val t.isLt = k0_pay11 (iblk m c 0 t) (iblk m c 1 t) := by
  obtain ⟨n, hn⟩ := t
  cases n with
  | zero => rfl
  | succ n => exact if_pos h

theorem accAt_ph1 (c : Dev nD) (t : Fin cfg0.N) (h : t.val % 4 = 1) :
    accAt m c t.val t.isLt = k0_pay12 (iblk m c 0 t) (iblk m c 1 t) (accAt m c (t.val - 1) (Nat.lt_of_le_of_lt (Nat.sub_le _ _) t.isLt)) := by
  obtain ⟨n, hn⟩ := t
  cases n with
  | zero => exact absurd (show (0 : ℕ) % 4 = _ from h) (by decide)
  | succ n => exact (if_neg (by dsimp only at h; omega)).trans (if_pos h)

theorem accAt_keep (c : Dev nD) (t : Fin cfg0.N) (h : t.val % 4 = 2 ∨ t.val % 4 = 3) :
    accAt m c t.val t.isLt = accAt m c (t.val - 1) (Nat.lt_of_le_of_lt (Nat.sub_le _ _) t.isLt) := by
  obtain ⟨n, hn⟩ := t
  cases n with
  | zero => exact absurd (show (0 : ℕ) % 4 = 2 ∨ (0 : ℕ) % 4 = 3 from h) (by decide)
  | succ n => exact (if_neg (by dsimp only at h; omega)).trans (if_neg (by dsimp only at h; omega))

/-- The output cell after the body at position `n` (nothing is said of it before a batch's phase 2). -/
def outAt (c : Dev nD) : (n : ℕ) → n < cfg0.N → Vec F S1x1x1 .f32
  | 0, hn => k0_pay13 (iblk m c 0 ⟨0, hn⟩) (iblk m c 1 ⟨0, hn⟩) (k0_pay11 (iblk m c 0 ⟨0, hn⟩) (iblk m c 1 ⟨0, hn⟩))
  | n + 1, hn =>
    if (n + 1) % 4 = 2 then k0_pay13 (iblk m c 0 ⟨n + 1, hn⟩) (iblk m c 1 ⟨n + 1, hn⟩) (accAt m c n (Nat.lt_of_succ_lt hn))
    else if (n + 1) % 4 = 3 then k0_pay14 (iblk m c 0 ⟨n + 1, hn⟩) (iblk m c 1 ⟨n + 1, hn⟩) (accAt m c n (Nat.lt_of_succ_lt hn)) (outAt c n (Nat.lt_of_succ_lt hn))
    else outAt c n (Nat.lt_of_succ_lt hn)

theorem outAt_ph2 (c : Dev nD) (t : Fin cfg0.N) (h : t.val % 4 = 2) :
    outAt m c t.val t.isLt = k0_pay13 (iblk m c 0 t) (iblk m c 1 t) (accAt m c (t.val - 1) (Nat.lt_of_le_of_lt (Nat.sub_le _ _) t.isLt)) := by
  obtain ⟨n, hn⟩ := t
  cases n with
  | zero => exact absurd (show (0 : ℕ) % 4 = _ from h) (by decide)
  | succ n => exact if_pos h

theorem outAt_ph3 (c : Dev nD) (t : Fin cfg0.N) (h : t.val % 4 = 3) :
    outAt m c t.val t.isLt = k0_pay14 (iblk m c 0 t) (iblk m c 1 t) (accAt m c (t.val - 1) (Nat.lt_of_le_of_lt (Nat.sub_le _ _) t.isLt))
      (outAt m c (t.val - 1) (Nat.lt_of_le_of_lt (Nat.sub_le _ _) t.isLt)) := by
  obtain ⟨n, hn⟩ := t
  cases n with
  | zero => exact absurd (show (0 : ℕ) % 4 = _ from h) (by decide)
  | succ n => exact (if_neg (by dsimp only at h; omega)).trans (if_pos h)

/-! ## The invariant between two points -/

/-- Before the first point the region's plain invariant; after point `n` the scratch cell at `accAt n`. -/
def invAt (c : Dev nD) : (n : ℕ) → n ≤ cfg0.N → sProp 𝕄
  | 0, _ => Pipeline.ΦA spec0 c
  | n + 1, hn => iprop(iprop(owns (c : Thread nD τ) accMem fullShare (accAt m c n hn)) ∗ (∃ r, prngReg c r))

theorem invAt_zero (c : Dev nD) (n : ℕ) (h : n ≤ cfg0.N) (hz : n = 0) : invAt m c n h = Pipeline.ΦA spec0 c := by
  subst hz; rfl

theorem invAt_succ (c : Dev nD) (n : ℕ) (hn : n < cfg0.N) :
    invAt m c (n + 1) hn = iprop(iprop(owns (c : Thread nD τ) accMem fullShare (accAt m c n hn)) ∗ (∃ r, prngReg c r)) := rfl

theorem invAt_pos (c : Dev nD) (n : ℕ) (h : n ≤ cfg0.N) (hz : n ≠ 0) :
    invAt m c n h = iprop(iprop(owns (c : Thread nD τ) accMem fullShare (accAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val t.isLt
  Φ t := invAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = invAt m c t.val (Nat.le_of_lt t.isLt) := by
  dsimp only [dats]; simp only [Fin.coe_castSucc]

theorem after_x (c : Dev nD) (t : Fin cfg0.N) : (dats m 0 c).after 0 t = iblk m c 0 t := by dsimp only [dats]
theorem after_y (c : Dev nD) (t : Fin cfg0.N) : (dats m 0 c).after 1 t = iblk m c 1 t := by dsimp only [dats]
theorem after_o (c : Dev nD) (t : Fin cfg0.N) : (dats m 0 c).after 2 t = outAt m c t.val t.isLt := by dsimp only [dats]

/-- Each input's current staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_y (c : Dev nD) (t : Fin cfg0.N) (d) : (dats m 0 c).before 1 t d = iblk m c 1 t :=
  before0_1_of m (dats m 0 c) (A_eq m c 1) (after_y m c) t d

/-! ## What the output's current staging buffer holds when the body runs -/

/-- In phase 0 it is fresh: the first point, or the point after a write-back. -/
theorem before_o_ph0 (c : Dev nD) (t : Fin cfg0.N) (h : t.val % 4 = 0) (d) : (dats m 0 c).before 2 t d = d :=
  (dats m 0 c).before_out_reset 2 rfl t (by
    by_cases h0 : t.val = 0
    · exact .inl h0
    · exact .inr ⟨h0, out_flush ⟨t.val - 1, Nat.lt_of_le_of_lt (Nat.sub_le _ _) t.isLt⟩ (by show (t.val - 1) % 4 = 3; omega)⟩) d

/-- In phase 1 it is what phase 0 found: that point stored nothing into it. -/
theorem before_o_ph1 (c : Dev nD) (t : Fin cfg0.N) (h : t.val % 4 = 1) (d) : (dats m 0 c).before 2 t d = d := by
  have ht : t.val ≠ 0 := by omega
  rw [(dats m 0 c).before_of_pos 2 t ht (out_nofetch t),
    out_noflush ⟨t.val - 1, Nat.lt_of_le_of_lt (Nat.sub_le _ _) t.isLt⟩ (by show (t.val - 1) % 4 ≠ 3; omega), if_neg Bool.false_ne_true]
  unfold Dat.left
  rw [out_idle ⟨t.val - 1, Nat.lt_of_le_of_lt (Nat.sub_le _ _) t.isLt⟩ (.inl (by show (t.val - 1) % 4 = 0; omega))]
  exact before_o_ph0 m c ⟨t.val - 1, _⟩ (by show (t.val - 1) % 4 = 0; omega) d

/-- In phase 2 likewise. -/
theorem before_o_ph2 (c : Dev nD) (t : Fin cfg0.N) (h : t.val % 4 = 2) (d) : (dats m 0 c).before 2 t d = d := by
  have ht : t.val ≠ 0 := by omega
  rw [(dats m 0 c).before_of_pos 2 t ht (out_nofetch t),
    out_noflush ⟨t.val - 1, Nat.lt_of_le_of_lt (Nat.sub_le _ _) t.isLt⟩ (by show (t.val - 1) % 4 ≠ 3; omega), if_neg Bool.false_ne_true]
  unfold Dat.left
  rw [out_idle ⟨t.val - 1, Nat.lt_of_le_of_lt (Nat.sub_le _ _) t.isLt⟩ (.inr (by show (t.val - 1) % 4 = 1; omega))]
  exact before_o_ph1 m c ⟨t.val - 1, _⟩ (by show (t.val - 1) % 4 = 1; omega) d

/-- In phase 3 it is what phase 2 left: the block is not written back between the two. -/
theorem before_o_ph3 (c : Dev nD) (t : Fin cfg0.N) (h : t.val % 4 = 3) (d) :
    (dats m 0 c).before 2 t d = outAt m c (t.val - 1) (Nat.lt_of_le_of_lt (Nat.sub_le _ _) t.isLt) := by
  have ht : t.val ≠ 0 := by omega
  rw [(dats m 0 c).before_of_pos 2 t ht (out_nofetch t),
    out_noflush ⟨t.val - 1, Nat.lt_of_le_of_lt (Nat.sub_le _ _) t.isLt⟩ (by show (t.val - 1) % 4 ≠ 3; omega), if_neg Bool.false_ne_true]
  unfold Dat.left
  rw [out_live ⟨t.val - 1, Nat.lt_of_le_of_lt (Nat.sub_le _ _) t.isLt⟩ (.inl (by show (t.val - 1) % 4 = 2; omega))]
  show (dats m 0 c).kept 2 ⟨t.val - 1, _⟩ d = _
  unfold Dat.kept
  rw [Pipeline.fill_of_clip_none (cfg := cfg0) 2 _ (fun a => rfl) d ((dats m 0 c).after 2 ⟨t.val - 1, Nat.lt_of_le_of_lt (Nat.sub_le _ _) t.isLt⟩), Window.fill_cut, after_o]

end Cert.Kernel.Mmd

end
-- ==== Proof.KbFrame.lean ====
/-
  The body obligation at every point of the grid, phase by phase, and from it the run of the whole program:
  every weakly fair execution terminates with the two argument arrays unchanged, the output array holding, block by
  block, what the point that wrote the block back left in the output cell, and every other buffer as the host
  operations after the region leave it.
-/
import proofs.«107039_j55843164782710_1_alg».proof.Proof.KbData

set_option maxRecDepth 16384

noncomputable section

namespace Cert.Kernel.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, what the core owes, and the three windows' current
    staging buffers at what they hold. -/
def bodyPre (c : Dev nD) (t : Fin cfg0.N) : sProp 𝕄 :=
  iprop((dats m 0 c).Φ t.castSucc ∗ (dats m 0 c).owesAt () t.castSucc
    ∗ (∃ d, owns (c : Thread nD τ) (xMem t) fullShare ((dats m 0 c).before 0 t d))
    ∗ (∃ d, owns (c : Thread nD τ) (yMem t) fullShare ((dats m 0 c).before 1 t d))
    ∗ (∃ d, owns (c : Thread nD τ) (oMem t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_y]
  rw [show (dats m 0 c).owesAt () t.succ = (dats m 0 c).owesAt () t.castSucc from rfl]
  rw [show (dats m 0 c).Φ t.succ = invAt m c (t.val + 1) t.isLt from rfl, invAt_succ]
  rw [show (dats m 0 c).leavesExact 0 t = owns (c : Thread nD τ) (xMem t) fullShare ((dats m 0 c).after 0 t) from by
    unfold Dat.leavesExact; rw [x_live t], after_x]
  rw [show (dats m 0 c).leavesExact 1 t = owns (c : Thread nD τ) (yMem t) fullShare ((dats m 0 c).after 1 t) from by
    unfold Dat.leavesExact; rw [y_live t], after_y]
  have hN : t.val < 128 := lt_of_lt_of_eq t.isLt (show cfg0.N = 128 from N_0)
  have h4 : t.val % 4 = 0 ∨ t.val % 4 = 1 ∨ t.val % 4 = 2 ∨ t.val % 4 = 3 := by omega
  rcases h4 with h | h | h | h
  · -- phase 0: the scratch cell is overwritten, the output cell handed back as found
    rw [Dat.leavesExact_idle (dats m 0 c) 2 t (out_idle t (.inl h)) (out_noflush t (by omega))]
    rw [accAt_ph0 m c t h]
    by_cases hz : t.val = 0
    · rw [inv_castSucc m c t, invAt_zero m c _ _ hz, plainInv_eq]
      iintro ⟨⟨HS, Hg⟩, Ho, ⟨%d0, H0⟩, ⟨%d1, H1⟩, ⟨%d2, H2⟩⟩
      iapply (phase0 c (grid0.coords t) _ _ _ _ _ _ _ _ ((phase0_iff t).mpr h) (fun h' => by have := (phase1_iff t).mp h'; omega) (fun h' => by have := (phase2_iff t).mp h'; omega) (fun h' => by have := (phase3_iff t).mp h'; omega) (iblk m c 0 t) (iblk m c 1 t) Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      iexists _; iexact H2
    · rw [inv_castSucc m c t, invAt_pos m c _ _ hz]
      iintro ⟨⟨HS, Hg⟩, Ho, ⟨%d0, H0⟩, ⟨%d1, H1⟩, ⟨%d2, H2⟩⟩
      iapply (phase0 c (grid0.coords t) _ _ _ _ _ _ _ _ ((phase0_iff t).mpr h) (fun h' => by have := (phase1_iff t).mp h'; omega) (fun h' => by have := (phase2_iff t).mp h'; omega) (fun h' => by have := (phase3_iff t).mp h'; omega) (iblk m c 0 t) (iblk m c 1 t) Set.univ _)
      isplitl [H0]; · iexact H0
      isplitl [H1]; · iexact H1
      isplitl [HS]; · iexists _; iexact HS
      iintro ⟨H0, H1, HS⟩
      isplitl [HS Hg]
      · isplitl [HS]; · iexact HS
        iexact Hg
      isplitl [Ho]; · iexact Ho
      isplitl [H0]; · iexact H0
      isplitl [H1]; · iexact H1
      iexists _; iexact H2
  · -- phase 1: the scratch cell found at what phase 0 left
    rw [Dat.leavesExact_idle (dats m 0 c) 2 t (out_idle t (.inr h)) (out_noflush t (by omega))]
    rw [accAt_ph1 m c t h]
    have hz : t.val ≠ 0 := by omega
    rw [inv_castSucc m c t, invAt_pos m c _ _ hz]
    iintro ⟨⟨HS, Hg⟩, Ho, ⟨%d0, H0⟩, ⟨%d1, H1⟩, ⟨%d2, H2⟩⟩
    iapply (phase1 c (grid0.coords t) _ _ _ _ _ _ _ _ (fun h' => by have := (phase0_iff t).mp h'; omega) ((phase1_iff t).mpr h) (fun h' => by have := (phase2_iff t).mp h'; omega) (fun h' => by have := (phase3_iff t).mp h'; omega) (iblk m c 0 t) (iblk m c 1 t) _ Set.univ _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iexact H0
    isplitl [H1]; · iexact H1
    iexists _; iexact H2
  · -- phase 2: the output cell, found at anything, is overwritten; the scratch cell kept
    rw [show (dats m 0 c).leavesExact 2 t = owns (c : Thread nD τ) (oMem t) fullShare ((dats m 0 c).after 2 t) from by
      unfold Dat.leavesExact; rw [out_live t (.inl h)], after_o, outAt_ph2 m c t h, accAt_keep m c t (.inl h)]
    have hz : t.val ≠ 0 := by omega
    rw [inv_castSucc m c t, invAt_pos m c _ _ hz]
    iintro ⟨⟨HS, Hg⟩, Ho, ⟨%d0, H0⟩, ⟨%d1, H1⟩, ⟨%d2, H2⟩⟩
    iapply (phase2 c (grid0.coords t) _ _ _ _ _ _ _ _ (fun h' => by have := (phase0_iff t).mp h'; omega) (fun h' => by have := (phase1_iff t).mp h'; omega) ((phase2_iff t).mpr h) (fun h' => by have := (phase3_iff t).mp h'; omega) (iblk m c 0 t) (iblk m c 1 t) _ Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · -- phase 3: the output cell found at what phase 2 left
    rw [show (dats m 0 c).leavesExact 2 t = owns (c : Thread nD τ) (oMem t) fullShare ((dats m 0 c).after 2 t) from by
      unfold Dat.leavesExact; rw [out_live t (.inr h)], after_o, outAt_ph3 m c t h, accAt_keep m c t (.inr h)]
    simp only [before_o_ph3 m c t h]
    have hz : t.val ≠ 0 := by omega
    rw [inv_castSucc m c t, invAt_pos m c _ _ hz]
    iintro ⟨⟨HS, Hg⟩, Ho, ⟨%d0, H0⟩, ⟨%d1, H1⟩, ⟨%d2, H2⟩⟩
    iapply (phase3 c (grid0.coords t) _ _ _ _ _ _ _ _ (fun h' => by have := (phase0_iff t).mp h'; omega) (fun h' => by have := (phase1_iff t).mp h'; omega) (fun h' => by have := (phase2_iff t).mp h'; omega) ((phase3_iff t).mpr h) (iblk m c 0 t) (iblk m c 1 t) _ _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = invAt m c 0 (Nat.zero_le _) from rfl, invAt_zero m c 0 _ rfl]
  try exact Idealize.SL.BI.Entails.refl _

/-- After the last point the invariant gives the plain one back: the scratch cell's contents are forgotten. -/
theorem inv_out (c : Dev nD) : (dats m 0 c).Φ (Fin.last cfg0.N) ⊢ Pipeline.ΦA spec0 c := by
  have hne : (Fin.last cfg0.N).val ≠ 0 := by rw [Fin.val_last]; have : cfg0.N = 128 := N_0; omega
  rw [show (dats m 0 c).Φ (Fin.last cfg0.N) = invAt m c (Fin.last cfg0.N).val (Nat.le_of_lt_succ (Fin.last cfg0.N).isLt) from rfl,
    invAt_pos m c _ _ hne, plainInv_eq]
  iintro ⟨HS, Hg⟩
  isplitl [HS]
  · iexists _; iexact HS
  iexact Hg

set_option backward.isDefEq.respectTransparency.types false in
/-- The run: every weakly fair execution of the program terminates, every array of the pipeline at what the
    library computes from the proof data, every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Mmd

end
-- ==== Proof.KiPhases.lean ====
/-
  The kernel's grid is 32 batches × 4 phases; the phase is the grid's second coordinate, which at the linear
  point t is t % 4. Phase 0 stores the one-cell scratch with the sum, over the rows of X, of the clamped squared
  distances to every row of Z = [X; Y]; phase 1 adds the same sum over the rows of Y and divides by n² − n: the
  bandwidth. Phase 2 stores the one-cell output block with (Σ k over X×X − 2 Σ k over X×Y) / S², k = exp(−d²/bw);
  phase 3 adds Σ k over Y×Y / S² to it. Here: the four branch conditions decided over the grid, the output
  window's schedule (nothing stored into it in phases 0 and 1, written back after phase 3 only), the staging
  memrefs the body is called with at a point, and the region's invariant opened at the scratch cell.
-/
import proofs.«107039_j55843164782710_1_alg».proof.Proof.Gen.KernelIdeal.Frame
import proofs.«107039_j55843164782710_1_alg».proof.Proof.Gen.KernelIdeal.Skeleton

set_option maxRecDepth 16384

noncomputable section

namespace Cert.KernelIdeal.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The four branch conditions, as the body spells them, and their closed forms -/

abbrev inPhase0 (i : grid0.Coords) : Prop := (Scalar.cmpi .ne (Scalar.extui (Scalar.cmpi .eq (BitVec.ofNat 32 (i 1).val) 0#32)) 0#32) = 1#1
abbrev inPhase1 (i : grid0.Coords) : Prop := (Scalar.cmpi .ne (Scalar.extui (Scalar.cmpi .eq (BitVec.ofNat 32 (i 1).val) 1#32)) 0#32) = 1#1
abbrev inPhase2 (i : grid0.Coords) : Prop := k0_cond3 i = 1#1
abbrev inPhase3 (i : grid0.Coords) : Prop := k0_cond4 i = 1#1

theorem phase0_iff : ∀ t : Fin cfg0.N, inPhase0 (grid0.coords t) ↔ t.val % 4 = 0 :=
  (by decide +kernel : ∀ t : Fin grid0.N, inPhase0 (grid0.coords t) ↔ t.val % 4 = 0)
theorem phase1_iff : ∀ t : Fin cfg0.N, inPhase1 (grid0.coords t) ↔ t.val % 4 = 1 :=
  (by decide +kernel : ∀ t : Fin grid0.N, inPhase1 (grid0.coords t) ↔ t.val % 4 = 1)
theorem phase2_iff : ∀ t : Fin cfg0.N, inPhase2 (grid0.coords t) ↔ t.val % 4 = 2 :=
  (by decide +kernel : ∀ t : Fin grid0.N, inPhase2 (grid0.coords t) ↔ t.val % 4 = 2)
theorem phase3_iff : ∀ t : Fin cfg0.N, inPhase3 (grid0.coords t) ↔ t.val % 4 = 3 :=
  (by decide +kernel : ∀ t : Fin grid0.N, inPhase3 (grid0.coords t) ↔ t.val % 4 = 3)

/-! ## The windows' schedule -/

/-- The two input windows are stored into by no phase and are never idle. -/
theorem x_live : ∀ t : Fin cfg0.N, cfg0.idle 0 (grid0.coords t) = false := by decide +kernel
theorem y_live : ∀ t : Fin cfg0.N, cfg0.idle 1 (grid0.coords t) = false := by decide +kernel
/-- The output window is idle exactly in phases 0 and 1. -/
theorem out_idle : ∀ t : Fin cfg0.N, t.val % 4 = 0 ∨ t.val % 4 = 1 → cfg0.idle 2 (grid0.coords t) = true :=
  (by decide +kernel : ∀ t : Fin grid0.N, t.val % 4 = 0 ∨ t.val % 4 = 1 → cfg0.idle 2 (grid0.coords t) = true)
theorem out_live : ∀ t : Fin cfg0.N, t.val % 4 = 2 ∨ t.val % 4 = 3 → cfg0.idle 2 (grid0.coords t) = false :=
  (by decide +kernel : ∀ t : Fin grid0.N, t.val % 4 = 2 ∨ t.val % 4 = 3 → cfg0.idle 2 (grid0.coords t) = false)
/-- Its block is written back after phase 3 and at no other point. -/
theorem out_noflush (t : Fin cfg0.N) (h : t.val % 4 ≠ 3) : (cfg0.win 2).flush t = false := by
  cases hf : (cfg0.win 2).flush t
  · rfl
  · exact absurd ((flush0_2 t).mp hf) h
theorem out_flush (t : Fin cfg0.N) (h : t.val % 4 = 3) : (cfg0.win 2).flush t = true := (flush0_2 t).mpr h
/-- The output window is an output: it is never fetched. -/
theorem out_nofetch : ∀ t : Fin cfg0.N, (cfg0.win 2).fetch t = false :=
  (by decide +kernel : ∀ t : Fin grid0.N, (cfg0.win 2).fetch t = false)

/-! ## The memrefs the body is called with at a point -/

abbrev xMem (t : Fin cfg0.N) : Memref sig .tc .vmem S1x1024x128 .f32 := win0_0.stage (cfg0.slots t 0)
abbrev xMem_whole (t : Fin cfg0.N) : (xMem t).IsWhole := hstage0_0 ((cfg0.slots t 0).cast nbuf0_0)
abbrev yMem (t : Fin cfg0.N) : Memref sig .tc .vmem S1x1024x128 .f32 := win0_1.stage (cfg0.slots t 1)
abbrev yMem_whole (t : Fin cfg0.N) : (yMem t).IsWhole := hstage0_1 ((cfg0.slots t 1).cast nbuf0_1)
abbrev oMem (t : Fin cfg0.N) : Memref sig .tc .vmem S1x1x1 .f32 := win0_2.stage (cfg0.slots t 2)
abbrev oMem_whole (t : Fin cfg0.N) : (oMem t).IsWhole := hstage0_2 ((cfg0.slots t 2).cast nbuf0_2)
/-- The scratch cell: a whole scoped buffer of the kernel's own. -/
abbrev accMem : Memref sig .tc .vmem S1x1 .f32 := Memref.whole cc0_scratch0
abbrev accView : View sig .tc .vmem S1x1 .f32 := accMem.view
abbrev oView (t : Fin cfg0.N) : View sig .tc .vmem S1x1x1 .f32 := (oMem t).view

/-- The region's plain invariant is the scratch cell owned at some contents beside the generator register. -/
theorem plainInv_eq (c : Dev nD) :
    (Pipeline.ΦA spec0 c : sProp 𝕄)
      = iprop(iprop((∃ d, owns (c : Thread nD τ) accMem fullShare d)) ∗ (∃ r, prngReg c r)) := by
  unfold Pipeline.ΦA; rw [scopedRest0_eq]; simp only [accMem, owns_whole]; try rfl

end Cert.KernelIdeal.Mmd

end
-- ==== Proof.KiRuns.lean ====
/-
  The body at a point of each phase, run symbolically on whole staging memrefs: the two input blocks are only
  read; phase 0 overwrites the scratch cell, phase 1 reads it and overwrites it, phase 2 reads it and overwrites
  the output cell, phase 3 reads both and overwrites the output cell. For each phase first the run itself, the
  cell's new contents found as the list of pieces its stores leave; then that one covering store leaves exactly
  the store's operand, a pure term of what the body loaded; then the two combined into a triple whose post names
  that term.
-/
import proofs.«107039_j55843164782710_1_alg».proof.Proof.KiPhases
import Idealize.ShloMosaic.Lib.Pipeline.Value

set_option maxRecDepth 16384

noncomputable section

namespace Cert.KernelIdeal.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

private theorem z2 : (![0, 0] : Fin 2 → ℕ) = fun _ => 0 := by funext a; fin_cases a <;> rfl
private theorem z3 : (![0, 0, 0] : Fin 3 → ℕ) = fun _ => 0 := by funext a; fin_cases a <;> rfl

/-! ## Phase 0: the scratch cell := the X rows' sum -/

set_option maxHeartbeats 1000000 in
noncomputable def run0 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : inPhase0 i) (hc1 : ¬inPhase1 i) (hc2 : ¬inPhase2 i) (hc3 : ¬inPhase3 i)
    (x y : Vec F S1x1024x128 .f32) :
    { LS : List (View.Piece (Elt F) S1x1 .f32) //
      ∀ (E : Set ℕ) (K : PUnit → sProp 𝕄),
        iprop(owns (c : Thread nD τ) arg2 fullShare x ∗ owns (c : Thread nD τ) arg3 fullShare y ∗ (∃ d, owns (c : Thread nD τ) arg5 fullShare d)
            ∗ (iprop(owns (c : Thread nD τ) arg2 fullShare x ∗ owns (c : Thread nD τ) arg3 fullShare y ∗ (∃ f, arg5.view.loc (c : Thread nD τ) ↦[arg5.view.set]{fullShare} arg5.view.writes (Elt F) f LS)) -∗ K ⟨⟩))
          ⊢ wp frame (wpE (defs₀ (F := F)) Variants.none c none) E (cc0__mmd_kernel i arg2 harg2 arg3 harg3 arg4 harg4 arg5 harg5) K } := by
  refine ⟨?_, fun E K => ?run⟩
  case run =>
    simp only [cc0__mmd_kernel_eq_skeleton]; unfold cc0__mmd_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    iexists _; iexact HS

theorem run0_cover (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : inPhase0 i) (hc1 : ¬inPhase1 i) (hc2 : ¬inPhase2 i) (hc3 : ¬inPhase3 i) (x y : Vec F S1x1024x128 .f32) (j : S1x1.Idx) :
    ∃ pc ∈ (run0 c i arg2 harg2 arg3 harg3 arg4 harg4 arg5 harg5 hc0 hc1 hc2 hc3 x y).1, j ∈ pc.1.set :=
  View.cover_of_tiledL (run0 c i arg2 harg2 arg3 harg3 arg4 harg4 arg5 harg5 hc0 hc1 hc2 hc3 x y).1 S1x1.size (by sl_kernel_rfl) j

theorem run0_leaves (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : inPhase0 i) (hc1 : ¬inPhase1 i) (hc2 : ¬inPhase2 i) (hc3 : ¬inPhase3 i) (x y : Vec F S1x1024x128 .f32) :
    View.canon (run0 c i arg2 harg2 arg3 harg3 arg4 harg4 arg5 harg5 hc0 hc1 hc2 hc3 x y).1 = k0_pay11 x y := by
  unfold run0; dsimp only; sl_unfold_words
  rw [View.canon_unit_zero (S := S1x1) z2]
  simp only [View.readAt_eq_ld, harg2.read_unread, harg3.read_unread, View.ld_unit_zero (S := S1x1024x128) z3]

/-- Phase 0 as a triple: the inputs kept, the scratch cell at the first store's operand. -/
theorem phase0 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : inPhase0 i) (hc1 : ¬inPhase1 i) (hc2 : ¬inPhase2 i) (hc3 : ¬inPhase3 i) (x y : Vec F S1x1024x128 .f32) (E : Set ℕ) (K : PUnit → sProp 𝕄) :
    iprop(owns (c : Thread nD τ) arg2 fullShare x ∗ owns (c : Thread nD τ) arg3 fullShare y ∗ (∃ d, owns (c : Thread nD τ) arg5 fullShare d)
        ∗ (iprop(owns (c : Thread nD τ) arg2 fullShare x ∗ owns (c : Thread nD τ) arg3 fullShare y ∗ owns (c : Thread nD τ) arg5 fullShare (k0_pay11 x y)) -∗ K ⟨⟩))
      ⊢ wp frame (wpE (defs₀ (F := F)) Variants.none c none) E (cc0__mmd_kernel i arg2 harg2 arg3 harg3 arg4 harg4 arg5 harg5) K := by
  iintro ⟨H0, H1, HS, Hk⟩
  iapply ((run0 c i arg2 harg2 arg3 harg3 arg4 harg4 arg5 harg5 hc0 hc1 hc2 hc3 x y).2 E K)
  isplitl [H0]; · iexact H0
  isplitl [H1]; · iexact H1
  isplitl [HS]; · iexact HS
  iintro ⟨H0, H1, ⟨%f, HS⟩⟩
  iapply Hk
  isplitl [H0]; · iexact H0
  isplitl [H1]; · iexact H1
  unfold owns; iexists _; isplitr
  swap; · iexact HS
  ipureintro
  exact (View.read_writes_eq_canon _ _ _ (run0_cover c i arg2 harg2 arg3 harg3 arg4 harg4 arg5 harg5 hc0 hc1 hc2 hc3 x y)).trans (run0_leaves c i arg2 harg2 arg3 harg3 arg4 harg4 arg5 harg5 hc0 hc1 hc2 hc3 x y)

/-! ## Phase 1: the scratch cell := (it + the Y rows' sum) / (n² − n) -/

set_option maxHeartbeats 1000000 in
noncomputable def run1 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : inPhase1 i) (hc2 : ¬inPhase2 i) (hc3 : ¬inPhase3 i)
    (x y : Vec F S1x1024x128 .f32) (a : Vec F S1x1 .f32) :
    { LS : List (View.Piece (Elt F) S1x1 .f32) //
      ∀ (E : Set ℕ) (K : PUnit → sProp 𝕄),
        iprop(owns (c : Thread nD τ) arg2 fullShare x ∗ owns (c : Thread nD τ) arg3 fullShare y ∗ owns (c : Thread nD τ) arg5 fullShare a
            ∗ (iprop(owns (c : Thread nD τ) arg2 fullShare x ∗ owns (c : Thread nD τ) arg3 fullShare y ∗ (∃ f, arg5.view.loc (c : Thread nD τ) ↦[arg5.view.set]{fullShare} arg5.view.writes (Elt F) f LS)) -∗ K ⟨⟩))
          ⊢ wp frame (wpE (defs₀ (F := F)) Variants.none c none) E (cc0__mmd_kernel i arg2 harg2 arg3 harg3 arg4 harg4 arg5 harg5) K } := by
  refine ⟨?_, fun E K => ?run⟩
  case run =>
    simp only [cc0__mmd_kernel_eq_skeleton]; unfold cc0__mmd_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg5.eq_unread hfs
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    iexists _; iexact HS

theorem run1_cover (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : inPhase1 i) (hc2 : ¬inPhase2 i) (hc3 : ¬inPhase3 i) (x y : Vec F S1x1024x128 .f32) (a : Vec F S1x1 .f32) (j : S1x1.Idx) :
    ∃ pc ∈ (run1 c i arg2 harg2 arg3 harg3 arg4 harg4 arg5 harg5 hc0 hc1 hc2 hc3 x y a).1, j ∈ pc.1.set :=
  View.cover_of_tiledL (run1 c i arg2 harg2 arg3 harg3 arg4 harg4 arg5 harg5 hc0 hc1 hc2 hc3 x y a).1 S1x1.size (by sl_kernel_rfl) j

theorem run1_leaves (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : inPhase1 i) (hc2 : ¬inPhase2 i) (hc3 : ¬inPhase3 i) (x y : Vec F S1x1024x128 .f32) (a : Vec F S1x1 .f32) :
    View.canon (run1 c i arg2 harg2 arg3 harg3 arg4 harg4 arg5 harg5 hc0 hc1 hc2 hc3 x y a).1 = k0_pay12 x y a := by
  unfold run1; dsimp only; sl_unfold_words
  rw [View.canon_unit_zero (S := S1x1) z2]
  simp only [View.readAt_eq_ld, harg2.read_unread, harg3.read_unread, harg5.read_unread, View.ld_unit_zero (S := S1x1024x128) z3,
    View.ld_unit_zero (S := S1x1) z2]

/-- Phase 1 as a triple: the scratch cell found at `a` is left at the second store's operand. -/
theorem phase1 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : inPhase1 i) (hc2 : ¬inPhase2 i) (hc3 : ¬inPhase3 i) (x y : Vec F S1x1024x128 .f32) (a : Vec F S1x1 .f32) (E : Set ℕ) (K : PUnit → sProp 𝕄) :
    iprop(owns (c : Thread nD τ) arg2 fullShare x ∗ owns (c : Thread nD τ) arg3 fullShare y ∗ owns (c : Thread nD τ) arg5 fullShare a
        ∗ (iprop(owns (c : Thread nD τ) arg2 fullShare x ∗ owns (c : Thread nD τ) arg3 fullShare y ∗ owns (c : Thread nD τ) arg5 fullShare (k0_pay12 x y a)) -∗ K ⟨⟩))
      ⊢ wp frame (wpE (defs₀ (F := F)) Variants.none c none) E (cc0__mmd_kernel i arg2 harg2 arg3 harg3 arg4 harg4 arg5 harg5) K := by
  iintro ⟨H0, H1, HS, Hk⟩
  iapply ((run1 c i arg2 harg2 arg3 harg3 arg4 harg4 arg5 harg5 hc0 hc1 hc2 hc3 x y a).2 E K)
  isplitl [H0]; · iexact H0
  isplitl [H1]; · iexact H1
  isplitl [HS]; · iexact HS
  iintro ⟨H0, H1, ⟨%f, HS⟩⟩
  iapply Hk
  isplitl [H0]; · iexact H0
  isplitl [H1]; · iexact H1
  unfold owns; iexists _; isplitr
  swap; · iexact HS
  ipureintro
  exact (View.read_writes_eq_canon _ _ _ (run1_cover c i arg2 harg2 arg3 harg3 arg4 harg4 arg5 harg5 hc0 hc1 hc2 hc3 x y a)).trans (run1_leaves c i arg2 harg2 arg3 harg3 arg4 harg4 arg5 harg5 hc0 hc1 hc2 hc3 x y a)

/-! ## Phase 2: the output cell := (Σ k over X×X − 2 Σ k over X×Y) / S² -/

set_option maxHeartbeats 1000000 in
noncomputable def run2 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : inPhase2 i) (hc3 : ¬inPhase3 i)
    (x y : Vec F S1x1024x128 .f32) (a : Vec F S1x1 .f32) :
    { LO : List (View.Piece (Elt F) S1x1x1 .f32) //
      ∀ (E : Set ℕ) (K : PUnit → sProp 𝕄),
        iprop(owns (c : Thread nD τ) arg2 fullShare x ∗ owns (c : Thread nD τ) arg3 fullShare y ∗ (∃ d, owns (c : Thread nD τ) arg4 fullShare d) ∗ owns (c : Thread nD τ) arg5 fullShare a
            ∗ (iprop(owns (c : Thread nD τ) arg2 fullShare x ∗ owns (c : Thread nD τ) arg3 fullShare y ∗ (∃ f, arg4.view.loc (c : Thread nD τ) ↦[arg4.view.set]{fullShare} arg4.view.writes (Elt F) f LO) ∗ owns (c : Thread nD τ) arg5 fullShare a) -∗ K ⟨⟩))
          ⊢ wp frame (wpE (defs₀ (F := F)) Variants.none c none) E (cc0__mmd_kernel i arg2 harg2 arg3 harg3 arg4 harg4 arg5 harg5) K } := by
  refine ⟨?_, fun E K => ?run⟩
  case run =>
    simp only [cc0__mmd_kernel_eq_skeleton]; unfold cc0__mmd_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; isplitr; · ipureintro; exact harg5.read_unread _
    iexact HS

theorem run2_cover (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : inPhase2 i) (hc3 : ¬inPhase3 i) (x y : Vec F S1x1024x128 .f32) (a : Vec F S1x1 .f32) (j : S1x1x1.Idx) :
    ∃ pc ∈ (run2 c i arg2 harg2 arg3 harg3 arg4 harg4 arg5 harg5 hc0 hc1 hc2 hc3 x y a).1, j ∈ pc.1.set :=
  View.cover_of_tiledL (run2 c i arg2 harg2 arg3 harg3 arg4 harg4 arg5 harg5 hc0 hc1 hc2 hc3 x y a).1 S1x1x1.size (by sl_kernel_rfl) j

theorem run2_leaves (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : inPhase2 i) (hc3 : ¬inPhase3 i) (x y : Vec F S1x1024x128 .f32) (a : Vec F S1x1 .f32) :
    View.canon (run2 c i arg2 harg2 arg3 harg3 arg4 harg4 arg5 harg5 hc0 hc1 hc2 hc3 x y a).1 = k0_pay13 x y a := by
  unfold run2; dsimp only; sl_unfold_words
  rw [View.canon_unit_zero (S := S1x1x1) z3]
  simp only [View.readAt_eq_ld, harg2.read_unread, harg3.read_unread, harg5.read_unread, View.ld_unit_zero (S := S1x1024x128) z3,
    View.ld_unit_zero (S := S1x1) z2]

/-- Phase 2 as a triple: the output cell, found at anything, is left at the third store's operand; the scratch cell kept. -/
theorem phase2 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : inPhase2 i) (hc3 : ¬inPhase3 i) (x y : Vec F S1x1024x128 .f32) (a : Vec F S1x1 .f32) (E : Set ℕ) (K : PUnit → sProp 𝕄) :
    iprop(owns (c : Thread nD τ) arg2 fullShare x ∗ owns (c : Thread nD τ) arg3 fullShare y ∗ (∃ d, owns (c : Thread nD τ) arg4 fullShare d) ∗ owns (c : Thread nD τ) arg5 fullShare a
        ∗ (iprop(owns (c : Thread nD τ) arg2 fullShare x ∗ owns (c : Thread nD τ) arg3 fullShare y ∗ owns (c : Thread nD τ) arg4 fullShare (k0_pay13 x y a) ∗ owns (c : Thread nD τ) arg5 fullShare a) -∗ K ⟨⟩))
      ⊢ wp frame (wpE (defs₀ (F := F)) Variants.none c none) E (cc0__mmd_kernel i arg2 harg2 arg3 harg3 arg4 harg4 arg5 harg5) K := by
  iintro ⟨H0, H1, H2, HS, Hk⟩
  iapply ((run2 c i arg2 harg2 arg3 harg3 arg4 harg4 arg5 harg5 hc0 hc1 hc2 hc3 x y a).2 E K)
  isplitl [H0]; · iexact H0
  isplitl [H1]; · iexact H1
  isplitl [H2]; · iexact H2
  isplitl [HS]; · iexact HS
  iintro ⟨H0, H1, ⟨%f, H2⟩, HS⟩
  iapply Hk
  isplitl [H0]; · iexact H0
  isplitl [H1]; · iexact H1
  isplitl [H2]
  · unfold owns; iexists _; isplitr
    swap; · iexact H2
    ipureintro
    exact (View.read_writes_eq_canon _ _ _ (run2_cover c i arg2 harg2 arg3 harg3 arg4 harg4 arg5 harg5 hc0 hc1 hc2 hc3 x y a)).trans (run2_leaves c i arg2 harg2 arg3 harg3 arg4 harg4 arg5 harg5 hc0 hc1 hc2 hc3 x y a)
  iexact HS

/-! ## Phase 3: the output cell := it + Σ k over Y×Y / S² -/

set_option maxHeartbeats 1000000 in
noncomputable def run3 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : ¬inPhase2 i) (hc3 : inPhase3 i)
    (x y : Vec F S1x1024x128 .f32) (a : Vec F S1x1 .f32) (o : Vec F S1x1x1 .f32) :
    { LO : List (View.Piece (Elt F) S1x1x1 .f32) //
      ∀ (E : Set ℕ) (K : PUnit → sProp 𝕄),
        iprop(owns (c : Thread nD τ) arg2 fullShare x ∗ owns (c : Thread nD τ) arg3 fullShare y ∗ owns (c : Thread nD τ) arg4 fullShare o ∗ owns (c : Thread nD τ) arg5 fullShare a
            ∗ (iprop(owns (c : Thread nD τ) arg2 fullShare x ∗ owns (c : Thread nD τ) arg3 fullShare y ∗ (∃ f, arg4.view.loc (c : Thread nD τ) ↦[arg4.view.set]{fullShare} arg4.view.writes (Elt F) f LO) ∗ owns (c : Thread nD τ) arg5 fullShare a) -∗ K ⟨⟩))
          ⊢ wp frame (wpE (defs₀ (F := F)) Variants.none c none) E (cc0__mmd_kernel i arg2 harg2 arg3 harg3 arg4 harg4 arg5 harg5) K } := by
  refine ⟨?_, fun E K => ?run⟩
  case run =>
    simp only [cc0__mmd_kernel_eq_skeleton]; unfold cc0__mmd_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; isplitr; · ipureintro; exact harg5.read_unread _
    iexact HS

theorem run3_cover (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : ¬inPhase2 i) (hc3 : inPhase3 i) (x y : Vec F S1x1024x128 .f32) (a : Vec F S1x1 .f32) (o : Vec F S1x1x1 .f32) (j : S1x1x1.Idx) :
    ∃ pc ∈ (run3 c i arg2 harg2 arg3 harg3 arg4 harg4 arg5 harg5 hc0 hc1 hc2 hc3 x y a o).1, j ∈ pc.1.set :=
  View.cover_of_tiledL (run3 c i arg2 harg2 arg3 harg3 arg4 harg4 arg5 harg5 hc0 hc1 hc2 hc3 x y a o).1 S1x1x1.size (by sl_kernel_rfl) j

theorem run3_leaves (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : ¬inPhase2 i) (hc3 : inPhase3 i) (x y : Vec F S1x1024x128 .f32) (a : Vec F S1x1 .f32) (o : Vec F S1x1x1 .f32) :
    View.canon (run3 c i arg2 harg2 arg3 harg3 arg4 harg4 arg5 harg5 hc0 hc1 hc2 hc3 x y a o).1 = k0_pay14 x y a o := by
  unfold run3; dsimp only; sl_unfold_words
  rw [View.canon_unit_zero (S := S1x1x1) z3]
  simp only [View.readAt_eq_ld, harg2.read_unread, harg3.read_unread, harg4.read_unread, harg5.read_unread, View.ld_unit_zero (S := S1x1024x128) z3,
    View.ld_unit_zero (S := S1x1) z2, View.ld_unit_zero (S := S1x1x1) z3]

/-- Phase 3 as a triple: the output cell found at `o` is left at the fourth store's operand; the scratch cell kept. -/
theorem phase3 (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x1x1 .f32) (harg4 : arg4.IsWhole) (arg5 : Memref sig .tc .vmem S1x1 .f32) (harg5 : arg5.IsWhole) (hc0 : ¬inPhase0 i) (hc1 : ¬inPhase1 i) (hc2 : ¬inPhase2 i) (hc3 : inPhase3 i) (x y : Vec F S1x1024x128 .f32) (a : Vec F S1x1 .f32) (o : Vec F S1x1x1 .f32) (E : Set ℕ) (K : PUnit → sProp 𝕄) :
    iprop(owns (c : Thread nD τ) arg2 fullShare x ∗ owns (c : Thread nD τ) arg3 fullShare y ∗ owns (c : Thread nD τ) arg4 fullShare o ∗ owns (c : Thread nD τ) arg5 fullShare a
        ∗ (iprop(owns (c : Thread nD τ) arg2 fullShare x ∗ owns (c : Thread nD τ) arg3 fullShare y ∗ owns (c : Thread nD τ) arg4 fullShare (k0_pay14 x y a o) ∗ owns (c : Thread nD τ) arg5 fullShare a) -∗ K ⟨⟩))
      ⊢ wp frame (wpE (defs₀ (F := F)) Variants.none c none) E (cc0__mmd_kernel i arg2 harg2 arg3 harg3 arg4 harg4 arg5 harg5) K := by
  iintro ⟨H0, H1, H2, HS, Hk⟩
  iapply ((run3 c i arg2 harg2 arg3 harg3 arg4 harg4 arg5 harg5 hc0 hc1 hc2 hc3 x y a o).2 E K)
  isplitl [H0]; · iexact H0
  isplitl [H1]; · iexact H1
  isplitl [H2]; · iexact H2
  isplitl [HS]; · iexact HS
  iintro ⟨H0, H1, ⟨%f, H2⟩, HS⟩
  iapply Hk
  isplitl [H0]; · iexact H0
  isplitl [H1]; · iexact H1
  isplitl [H2]
  · unfold owns; iexists _; isplitr
    swap; · iexact H2
    ipureintro
    exact (View.read_writes_eq_canon _ _ _ (run3_cover c i arg2 harg2 arg3 harg3 arg4 harg4 arg5 harg5 hc0 hc1 hc2 hc3 x y a o)).trans (run3_leaves c i arg2 harg2 arg3 harg3 arg4 harg4 arg5 harg5 hc0 hc1 hc2 hc3 x y a o)
  iexact HS

end Cert.KernelIdeal.Mmd

end
-- ==== Proof.KiData.lean ====
/-
  The pipeline's proof data. After the body at point t the scratch cell holds, by recursion on t: in phase 0 the
  first store's operand of the point's two input blocks; in phase 1 the second store's operand of the blocks and of
  what the cell held; in phases 2 and 3 what it held. The output cell holds: in phase 2 the third store's operand
  of the blocks and the scratch cell; in phase 3 the fourth store's operand of the blocks, the scratch cell and
  what the output cell held (the block is written back only after phase 3, so phase 3 finds what phase 2 left);
  in phases 0 and 1 nothing is stored into it and the body hands it back as found. Between two points the region's
  invariant owns the scratch cell at these contents. From this: the body obligation at every point, by the phase's
  triple, and the run of the whole program with every array of the pipeline named.
-/
import proofs.«107039_j55843164782710_1_alg».proof.Proof.KiRuns

set_option maxRecDepth 16384

noncomputable section

namespace Cert.KernelIdeal.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cells, point by point -/

/-- The scratch cell after the body at position `n`. -/
def accAt (c : Dev nD) : (n : ℕ) → n < cfg0.N → Vec F S1x1 .f32
  | 0, hn => k0_pay11 (iblk m c 0 ⟨0, hn⟩) (iblk m c 1 ⟨0, hn⟩)
  | n + 1, hn =>
    if (n + 1) % 4 = 0 then k0_pay11 (iblk m c 0 ⟨n + 1, hn⟩) (iblk m c 1 ⟨n + 1, hn⟩)
    else if (n + 1) % 4 = 1 then k0_pay12 (iblk m c 0 ⟨n + 1, hn⟩) (iblk m c 1 ⟨n + 1, hn⟩) (accAt c n (Nat.lt_of_succ_lt hn))
    else accAt c n (Nat.lt_of_succ_lt hn)

theorem accAt_ph0 (c : Dev nD) (t : Fin cfg0.N) (h : t.val % 4 = 0) :
    accAt m c t.val t.isLt = k0_pay11 (iblk m c 0 t) (iblk m c 1 t) := by
  obtain ⟨n, hn⟩ := t
  cases n with
  | zero => rfl
  | succ n => exact if_pos h

theorem accAt_ph1 (c : Dev nD) (t : Fin cfg0.N) (h : t.val % 4 = 1) :
    accAt m c t.val t.isLt = k0_pay12 (iblk m c 0 t) (iblk m c 1 t) (accAt m c (t.val - 1) (Nat.lt_of_le_of_lt (Nat.sub_le _ _) t.isLt)) := by
  obtain ⟨n, hn⟩ := t
  cases n with
  | zero => exact absurd (show (0 : ℕ) % 4 = _ from h) (by decide)
  | succ n => exact (if_neg (by dsimp only at h; omega)).trans (if_pos h)

theorem accAt_keep (c : Dev nD) (t : Fin cfg0.N) (h : t.val % 4 = 2 ∨ t.val % 4 = 3) :
    accAt m c t.val t.isLt = accAt m c (t.val - 1) (Nat.lt_of_le_of_lt (Nat.sub_le _ _) t.isLt) := by
  obtain ⟨n, hn⟩ := t
  cases n with
  | zero => exact absurd (show (0 : ℕ) % 4 = 2 ∨ (0 : ℕ) % 4 = 3 from h) (by decide)
  | succ n => exact (if_neg (by dsimp only at h; omega)).trans (if_neg (by dsimp only at h; omega))

/-- The output cell after the body at position `n` (nothing is said of it before a batch's phase 2). -/
def outAt (c : Dev nD) : (n : ℕ) → n < cfg0.N → Vec F S1x1x1 .f32
  | 0, hn => k0_pay13 (iblk m c 0 ⟨0, hn⟩) (iblk m c 1 ⟨0, hn⟩) (k0_pay11 (iblk m c 0 ⟨0, hn⟩) (iblk m c 1 ⟨0, hn⟩))
  | n + 1, hn =>
    if (n + 1) % 4 = 2 then k0_pay13 (iblk m c 0 ⟨n + 1, hn⟩) (iblk m c 1 ⟨n + 1, hn⟩) (accAt m c n (Nat.lt_of_succ_lt hn))
    else if (n + 1) % 4 = 3 then k0_pay14 (iblk m c 0 ⟨n + 1, hn⟩) (iblk m c 1 ⟨n + 1, hn⟩) (accAt m c n (Nat.lt_of_succ_lt hn)) (outAt c n (Nat.lt_of_succ_lt hn))
    else outAt c n (Nat.lt_of_succ_lt hn)

theorem outAt_ph2 (c : Dev nD) (t : Fin cfg0.N) (h : t.val % 4 = 2) :
    outAt m c t.val t.isLt = k0_pay13 (iblk m c 0 t) (iblk m c 1 t) (accAt m c (t.val - 1) (Nat.lt_of_le_of_lt (Nat.sub_le _ _) t.isLt)) := by
  obtain ⟨n, hn⟩ := t
  cases n with
  | zero => exact absurd (show (0 : ℕ) % 4 = _ from h) (by decide)
  | succ n => exact if_pos h

theorem outAt_ph3 (c : Dev nD) (t : Fin cfg0.N) (h : t.val % 4 = 3) :
    outAt m c t.val t.isLt = k0_pay14 (iblk m c 0 t) (iblk m c 1 t) (accAt m c (t.val - 1) (Nat.lt_of_le_of_lt (Nat.sub_le _ _) t.isLt))
      (outAt m c (t.val - 1) (Nat.lt_of_le_of_lt (Nat.sub_le _ _) t.isLt)) := by
  obtain ⟨n, hn⟩ := t
  cases n with
  | zero => exact absurd (show (0 : ℕ) % 4 = _ from h) (by decide)
  | succ n => exact (if_neg (by dsimp only at h; omega)).trans (if_pos h)

/-! ## The invariant between two points -/

/-- Before the first point the region's plain invariant; after point `n` the scratch cell at `accAt n`. -/
def invAt (c : Dev nD) : (n : ℕ) → n ≤ cfg0.N → sProp 𝕄
  | 0, _ => Pipeline.ΦA spec0 c
  | n + 1, hn => iprop(iprop(owns (c : Thread nD τ) accMem fullShare (accAt m c n hn)) ∗ (∃ r, prngReg c r))

theorem invAt_zero (c : Dev nD) (n : ℕ) (h : n ≤ cfg0.N) (hz : n = 0) : invAt m c n h = Pipeline.ΦA spec0 c := by
  subst hz; rfl

theorem invAt_succ (c : Dev nD) (n : ℕ) (hn : n < cfg0.N) :
    invAt m c (n + 1) hn = iprop(iprop(owns (c : Thread nD τ) accMem fullShare (accAt m c n hn)) ∗ (∃ r, prngReg c r)) := rfl

theorem invAt_pos (c : Dev nD) (n : ℕ) (h : n ≤ cfg0.N) (hz : n ≠ 0) :
    invAt m c n h = iprop(iprop(owns (c : Thread nD τ) accMem fullShare (accAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val t.isLt
  Φ t := invAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = invAt m c t.val (Nat.le_of_lt t.isLt) := by
  dsimp only [dats]; simp only [Fin.coe_castSucc]

theorem after_x (c : Dev nD) (t : Fin cfg0.N) : (dats m 0 c).after 0 t = iblk m c 0 t := by dsimp only [dats]
theorem after_y (c : Dev nD) (t : Fin cfg0.N) : (dats m 0 c).after 1 t = iblk m c 1 t := by dsimp only [dats]
theorem after_o (c : Dev nD) (t : Fin cfg0.N) : (dats m 0 c).after 2 t = outAt m c t.val t.isLt := by dsimp only [dats]

/-- Each input's current staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_y (c : Dev nD) (t : Fin cfg0.N) (d) : (dats m 0 c).before 1 t d = iblk m c 1 t :=
  before0_1_of m (dats m 0 c) (A_eq m c 1) (after_y m c) t d

/-! ## What the output's current staging buffer holds when the body runs -/

/-- In phase 0 it is fresh: the first point, or the point after a write-back. -/
theorem before_o_ph0 (c : Dev nD) (t : Fin cfg0.N) (h : t.val % 4 = 0) (d) : (dats m 0 c).before 2 t d = d :=
  (dats m 0 c).before_out_reset 2 rfl t (by
    by_cases h0 : t.val = 0
    · exact .inl h0
    · exact .inr ⟨h0, out_flush ⟨t.val - 1, Nat.lt_of_le_of_lt (Nat.sub_le _ _) t.isLt⟩ (by show (t.val - 1) % 4 = 3; omega)⟩) d

/-- In phase 1 it is what phase 0 found: that point stored nothing into it. -/
theorem before_o_ph1 (c : Dev nD) (t : Fin cfg0.N) (h : t.val % 4 = 1) (d) : (dats m 0 c).before 2 t d = d := by
  have ht : t.val ≠ 0 := by omega
  rw [(dats m 0 c).before_of_pos 2 t ht (out_nofetch t),
    out_noflush ⟨t.val - 1, Nat.lt_of_le_of_lt (Nat.sub_le _ _) t.isLt⟩ (by show (t.val - 1) % 4 ≠ 3; omega), if_neg Bool.false_ne_true]
  unfold Dat.left
  rw [out_idle ⟨t.val - 1, Nat.lt_of_le_of_lt (Nat.sub_le _ _) t.isLt⟩ (.inl (by show (t.val - 1) % 4 = 0; omega))]
  exact before_o_ph0 m c ⟨t.val - 1, _⟩ (by show (t.val - 1) % 4 = 0; omega) d

/-- In phase 2 likewise. -/
theorem before_o_ph2 (c : Dev nD) (t : Fin cfg0.N) (h : t.val % 4 = 2) (d) : (dats m 0 c).before 2 t d = d := by
  have ht : t.val ≠ 0 := by omega
  rw [(dats m 0 c).before_of_pos 2 t ht (out_nofetch t),
    out_noflush ⟨t.val - 1, Nat.lt_of_le_of_lt (Nat.sub_le _ _) t.isLt⟩ (by show (t.val - 1) % 4 ≠ 3; omega), if_neg Bool.false_ne_true]
  unfold Dat.left
  rw [out_idle ⟨t.val - 1, Nat.lt_of_le_of_lt (Nat.sub_le _ _) t.isLt⟩ (.inr (by show (t.val - 1) % 4 = 1; omega))]
  exact before_o_ph1 m c ⟨t.val - 1, _⟩ (by show (t.val - 1) % 4 = 1; omega) d

/-- In phase 3 it is what phase 2 left: the block is not written back between the two. -/
theorem before_o_ph3 (c : Dev nD) (t : Fin cfg0.N) (h : t.val % 4 = 3) (d) :
    (dats m 0 c).before 2 t d = outAt m c (t.val - 1) (Nat.lt_of_le_of_lt (Nat.sub_le _ _) t.isLt) := by
  have ht : t.val ≠ 0 := by omega
  rw [(dats m 0 c).before_of_pos 2 t ht (out_nofetch t),
    out_noflush ⟨t.val - 1, Nat.lt_of_le_of_lt (Nat.sub_le _ _) t.isLt⟩ (by show (t.val - 1) % 4 ≠ 3; omega), if_neg Bool.false_ne_true]
  unfold Dat.left
  rw [out_live ⟨t.val - 1, Nat.lt_of_le_of_lt (Nat.sub_le _ _) t.isLt⟩ (.inl (by show (t.val - 1) % 4 = 2; omega))]
  show (dats m 0 c).kept 2 ⟨t.val - 1, _⟩ d = _
  unfold Dat.kept
  rw [Pipeline.fill_of_clip_none (cfg := cfg0) 2 _ (fun a => rfl) d ((dats m 0 c).after 2 ⟨t.val - 1, Nat.lt_of_le_of_lt (Nat.sub_le _ _) t.isLt⟩), Window.fill_cut, after_o]

end Cert.KernelIdeal.Mmd

end
-- ==== Proof.KiFrame.lean ====
/-
  The body obligation at every point of the grid, phase by phase, and from it the run of the whole program:
  every weakly fair execution terminates with the two argument arrays unchanged, the output array holding, block by
  block, what the point that wrote the block back left in the output cell, and every other buffer as the host
  operations after the region leave it.
-/
import proofs.«107039_j55843164782710_1_alg».proof.Proof.KiData

set_option maxRecDepth 16384

noncomputable section

namespace Cert.KernelIdeal.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, what the core owes, and the three windows' current
    staging buffers at what they hold. -/
def bodyPre (c : Dev nD) (t : Fin cfg0.N) : sProp 𝕄 :=
  iprop((dats m 0 c).Φ t.castSucc ∗ (dats m 0 c).owesAt () t.castSucc
    ∗ (∃ d, owns (c : Thread nD τ) (xMem t) fullShare ((dats m 0 c).before 0 t d))
    ∗ (∃ d, owns (c : Thread nD τ) (yMem t) fullShare ((dats m 0 c).before 1 t d))
    ∗ (∃ d, owns (c : Thread nD τ) (oMem t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_y]
  rw [show (dats m 0 c).owesAt () t.succ = (dats m 0 c).owesAt () t.castSucc from rfl]
  rw [show (dats m 0 c).Φ t.succ = invAt m c (t.val + 1) t.isLt from rfl, invAt_succ]
  rw [show (dats m 0 c).leavesExact 0 t = owns (c : Thread nD τ) (xMem t) fullShare ((dats m 0 c).after 0 t) from by
    unfold Dat.leavesExact; rw [x_live t], after_x]
  rw [show (dats m 0 c).leavesExact 1 t = owns (c : Thread nD τ) (yMem t) fullShare ((dats m 0 c).after 1 t) from by
    unfold Dat.leavesExact; rw [y_live t], after_y]
  have hN : t.val < 128 := lt_of_lt_of_eq t.isLt (show cfg0.N = 128 from N_0)
  have h4 : t.val % 4 = 0 ∨ t.val % 4 = 1 ∨ t.val % 4 = 2 ∨ t.val % 4 = 3 := by omega
  rcases h4 with h | h | h | h
  · -- phase 0: the scratch cell is overwritten, the output cell handed back as found
    rw [Dat.leavesExact_idle (dats m 0 c) 2 t (out_idle t (.inl h)) (out_noflush t (by omega))]
    rw [accAt_ph0 m c t h]
    by_cases hz : t.val = 0
    · rw [inv_castSucc m c t, invAt_zero m c _ _ hz, plainInv_eq]
      iintro ⟨⟨HS, Hg⟩, Ho, ⟨%d0, H0⟩, ⟨%d1, H1⟩, ⟨%d2, H2⟩⟩
      iapply (phase0 c (grid0.coords t) _ _ _ _ _ _ _ _ ((phase0_iff t).mpr h) (fun h' => by have := (phase1_iff t).mp h'; omega) (fun h' => by have := (phase2_iff t).mp h'; omega) (fun h' => by have := (phase3_iff t).mp h'; omega) (iblk m c 0 t) (iblk m c 1 t) Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      iexists _; iexact H2
    · rw [inv_castSucc m c t, invAt_pos m c _ _ hz]
      iintro ⟨⟨HS, Hg⟩, Ho, ⟨%d0, H0⟩, ⟨%d1, H1⟩, ⟨%d2, H2⟩⟩
      iapply (phase0 c (grid0.coords t) _ _ _ _ _ _ _ _ ((phase0_iff t).mpr h) (fun h' => by have := (phase1_iff t).mp h'; omega) (fun h' => by have := (phase2_iff t).mp h'; omega) (fun h' => by have := (phase3_iff t).mp h'; omega) (iblk m c 0 t) (iblk m c 1 t) Set.univ _)
      isplitl [H0]; · iexact H0
      isplitl [H1]; · iexact H1
      isplitl [HS]; · iexists _; iexact HS
      iintro ⟨H0, H1, HS⟩
      isplitl [HS Hg]
      · isplitl [HS]; · iexact HS
        iexact Hg
      isplitl [Ho]; · iexact Ho
      isplitl [H0]; · iexact H0
      isplitl [H1]; · iexact H1
      iexists _; iexact H2
  · -- phase 1: the scratch cell found at what phase 0 left
    rw [Dat.leavesExact_idle (dats m 0 c) 2 t (out_idle t (.inr h)) (out_noflush t (by omega))]
    rw [accAt_ph1 m c t h]
    have hz : t.val ≠ 0 := by omega
    rw [inv_castSucc m c t, invAt_pos m c _ _ hz]
    iintro ⟨⟨HS, Hg⟩, Ho, ⟨%d0, H0⟩, ⟨%d1, H1⟩, ⟨%d2, H2⟩⟩
    iapply (phase1 c (grid0.coords t) _ _ _ _ _ _ _ _ (fun h' => by have := (phase0_iff t).mp h'; omega) ((phase1_iff t).mpr h) (fun h' => by have := (phase2_iff t).mp h'; omega) (fun h' => by have := (phase3_iff t).mp h'; omega) (iblk m c 0 t) (iblk m c 1 t) _ Set.univ _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iexact H0
    isplitl [H1]; · iexact H1
    iexists _; iexact H2
  · -- phase 2: the output cell, found at anything, is overwritten; the scratch cell kept
    rw [show (dats m 0 c).leavesExact 2 t = owns (c : Thread nD τ) (oMem t) fullShare ((dats m 0 c).after 2 t) from by
      unfold Dat.leavesExact; rw [out_live t (.inl h)], after_o, outAt_ph2 m c t h, accAt_keep m c t (.inl h)]
    have hz : t.val ≠ 0 := by omega
    rw [inv_castSucc m c t, invAt_pos m c _ _ hz]
    iintro ⟨⟨HS, Hg⟩, Ho, ⟨%d0, H0⟩, ⟨%d1, H1⟩, ⟨%d2, H2⟩⟩
    iapply (phase2 c (grid0.coords t) _ _ _ _ _ _ _ _ (fun h' => by have := (phase0_iff t).mp h'; omega) (fun h' => by have := (phase1_iff t).mp h'; omega) ((phase2_iff t).mpr h) (fun h' => by have := (phase3_iff t).mp h'; omega) (iblk m c 0 t) (iblk m c 1 t) _ Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · -- phase 3: the output cell found at what phase 2 left
    rw [show (dats m 0 c).leavesExact 2 t = owns (c : Thread nD τ) (oMem t) fullShare ((dats m 0 c).after 2 t) from by
      unfold Dat.leavesExact; rw [out_live t (.inr h)], after_o, outAt_ph3 m c t h, accAt_keep m c t (.inr h)]
    simp only [before_o_ph3 m c t h]
    have hz : t.val ≠ 0 := by omega
    rw [inv_castSucc m c t, invAt_pos m c _ _ hz]
    iintro ⟨⟨HS, Hg⟩, Ho, ⟨%d0, H0⟩, ⟨%d1, H1⟩, ⟨%d2, H2⟩⟩
    iapply (phase3 c (grid0.coords t) _ _ _ _ _ _ _ _ (fun h' => by have := (phase0_iff t).mp h'; omega) (fun h' => by have := (phase1_iff t).mp h'; omega) (fun h' => by have := (phase2_iff t).mp h'; omega) ((phase3_iff t).mpr h) (iblk m c 0 t) (iblk m c 1 t) _ _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = invAt m c 0 (Nat.zero_le _) from rfl, invAt_zero m c 0 _ rfl]
  try exact Idealize.SL.BI.Entails.refl _

/-- After the last point the invariant gives the plain one back: the scratch cell's contents are forgotten. -/
theorem inv_out (c : Dev nD) : (dats m 0 c).Φ (Fin.last cfg0.N) ⊢ Pipeline.ΦA spec0 c := by
  have hne : (Fin.last cfg0.N).val ≠ 0 := by rw [Fin.val_last]; have : cfg0.N = 128 := N_0; omega
  rw [show (dats m 0 c).Φ (Fin.last cfg0.N) = invAt m c (Fin.last cfg0.N).val (Nat.le_of_lt_succ (Fin.last cfg0.N).isLt) from rfl,
    invAt_pos m c _ _ hne, plainInv_eq]
  iintro ⟨HS, Hg⟩
  isplitl [HS]
  · iexists _; iexact HS
  iexact Hg

set_option backward.isDefEq.respectTransparency.types false in
/-- The run: every weakly fair execution of the program terminates, every array of the pipeline at what the
    library computes from the proof data, every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Mmd

end
-- ==== Proof.MmdSpec.lean ====
/-
  The quantity both programs compute, per batch, as extended reals. From the rows z i (i < 2048, each of 128
  entries) of the stacked samples: rowSq i = Σ_d z i d², gram i j = Σ_d z i d · z j d, the clamped squared distance
  dist i j = max (rowSq i + rowSq j − 2 gram i j) 0, the bandwidth bw = (Σ_i Σ_j dist i j) / (n² − n), the kernel value
  ker i j = exp (−dist i j / bw), and the three block sums of ker over X×X, X×Y, Y×Y (X the first 1024 rows, Y the
  last). One program divides (XX − 2·XY) by S² and adds YY / S²; the other computes XX/S² − 2·(XY/S²) + YY/S².
  The two agree on all of the extended reals, because S² is a positive real: multiplying by its reciprocal
  distributes over a difference. No finiteness of the sums is needed.
-/
import Idealize.ShloMosaic.PureOps.Ideal
import Mathlib.Algebra.BigOperators.Fin

noncomputable section

namespace Cert.MmdSpec

open Idealize.ShloMosaic

/-- The literals the two programs share, as the extended reals their patterns denote. -/
abbrev zero : EReal := Ideal.ofBits .f32 0x00000000#32
abbrev two : EReal := Ideal.ofBits .f32 0x40000000#32
abbrev nPairs : EReal := Ideal.ofBits .f32 0x4A7FE000#32
abbrev sSq : EReal := Ideal.ofBits .f32 0x49800000#32

theorem zero_eq : zero = 0 := by simp [Ideal.ofBits, Ideal.ieee]
theorem two_eq : two = ((2 : ℝ) : EReal) := by
  simp [Ideal.ofBits, Ideal.ieee, -EReal.coe_mul]; norm_num
theorem sSq_eq : sSq = ((1048576 : ℝ) : EReal) := by
  simp [Ideal.ofBits, Ideal.ieee, -EReal.coe_mul]; norm_num

/-- Row `p` of X and row `p` of Y among the stacked rows. -/
def lo (p : Fin 1024) : Fin 2048 := ⟨p.val, by omega⟩
def hi (p : Fin 1024) : Fin 2048 := ⟨1024 + p.val, by omega⟩

/-- A sum over the stacked rows is the sum over X's rows plus the sum over Y's. -/
theorem sum_rows (f : Fin 2048 → EReal) : ∑ i, f i = ∑ p, f (lo p) + ∑ p, f (hi p) :=
  Fin.sum_univ_add (M := EReal) (a := 1024) (b := 1024) f

variable (z : Fin 2048 → Fin 128 → EReal)

def rowSq (i : Fin 2048) : EReal := ∑ d, z i d * z i d
def gram (i j : Fin 2048) : EReal := ∑ d, z i d * z j d
def sqDist (i j : Fin 2048) : EReal := max (rowSq z i + rowSq z j - two * gram z i j) zero
/-- The sum of the clamped squared distances from the rows `r p` to every row. -/
def rowsTotal (r : Fin 1024 → Fin 2048) : EReal := ∑ p, ∑ j, sqDist z (r p) j
def total : EReal := ∑ i, ∑ j, sqDist z i j
theorem total_eq : total z = rowsTotal z lo + rowsTotal z hi := sum_rows _

def bandwidth : EReal := Ideal.div (rowsTotal z lo + rowsTotal z hi) nPairs
def ker (w : EReal) (i j : Fin 2048) : EReal := Ideal.exp (Ideal.div (-(sqDist z i j)) w)
def blockSum (w : EReal) (r s : Fin 1024 → Fin 2048) : EReal := ∑ p, ∑ q, ker z w (r p) (s q)

/-- The result as the kernel arranges it, -/
def mmdGrouped : EReal :=
  Ideal.div (blockSum z (bandwidth z) lo lo - two * blockSum z (bandwidth z) lo hi) sSq + Ideal.div (blockSum z (bandwidth z) hi hi) sSq
/-- and as the reference does. -/
def mmdTermwise : EReal :=
  (Ideal.div (blockSum z (bandwidth z) lo lo) sSq - two * Ideal.div (blockSum z (bandwidth z) lo hi) sSq) + Ideal.div (blockSum z (bandwidth z) hi hi) sSq

/-- Dividing a difference by S² is the difference of the quotients, whatever the two extended reals. -/
theorem div_sSq_sub (a b : EReal) : Ideal.div (a - two * b) sSq = Ideal.div a sSq - two * Ideal.div b sSq := by
  have hk : ((1048576 : ℝ)) ≠ 0 := by norm_num
  rw [sSq_eq, Ideal.div_coe hk, Ideal.div_coe hk, Ideal.div_coe hk]
  have h0 : (0 : EReal) ≤ ((1 / 1048576 : ℝ) : EReal) := by exact_mod_cast (by norm_num : (0 : ℝ) ≤ 1 / 1048576)
  rw [EReal.sub_mul_of_nonneg_of_ne_top h0 (EReal.coe_ne_top _), mul_assoc]

theorem mmdGrouped_eq : mmdGrouped z = mmdTermwise z := by
  unfold mmdGrouped mmdTermwise; rw [div_sSq_sub]

/-- The reference scales the bandwidth by 2⁰, which is 1. -/
theorem two_pow_zero : Ideal.pow two 0 = 1 := by
  rw [two_eq]
  show ((Real.rpow 2 0 : ℝ) : EReal) = 1
  simp

end Cert.MmdSpec

end
-- ==== Proof.LibKeepdims.lean ====
/-
  Layout operations of a row-wise reduction kept as a column, read at an index written by coordinates:
  a block with two leading unit axes viewed as a matrix and back, a vector viewed as a one-column matrix,
  and a one-column matrix broadcast along its rows.  Each is the general read-at-an-index lemma of the
  layout operation with the operand's index already chosen.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector kept as a column and broadcast along the rows reads, at `(p, c)`, the vector at `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibKeepdims

end
-- ==== Proof.KiValueA.lean ====
/-
  One batch of the kernel, read index by index over the extended reals. The body stacks the batch's X block over
  its Y block: 2048 rows of 128 entries. Read at an index: the stack is those rows; its transpose is the rows with
  the two coordinates exchanged; the row sums of squares, kept as a column (from the stack) and as a row (from the
  transpose), are both Σ_d z i d²; the casts to bf16 are the identity here; the two halves cut from the stack and
  from the column are X's rows and Y's rows.
-/
import proofs.«107039_j55843164782710_1_alg».proof.Proof.Gen.KernelIdeal.Skeleton
import proofs.«107039_j55843164782710_1_alg».proof.Proof.MmdSpec
import proofs.«107039_j55843164782710_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MmdValue

open Cert.KernelIdeal Cert.KernelIdeal.Gen
open Idealize.ShloMosaic Idealize.ShloMosaic.ValueIdx Cert.MmdSpec Cert.LibKeepdims

/-! ## A lane sum and a sublane sum of a matrix, read at an index -/

/-- The sum along the columns: at row `p`, the sum of the row. -/
theorem sum_axis1 {a b : ℕ} (T : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ T 0x00000000#32 h hφ hacc (ix1 p) = ∑ q : Fin b, T (ix2 p q) :=
  (Ideal.multiReduction_add_single T _ h hφ hacc (ix1 p)).trans
    (Finset.sum_congr rfl fun k _ => congrArg T (funext fun ax => Fin.ext (by match ax with | ⟨0, _⟩ => rfl | ⟨1, _⟩ => rfl)))

/-- The sum along the rows: at column `q`, the sum of the column. -/
theorem sum_axis0 {a b : ℕ} (T : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (q : Fin b) :
    multiReduction .add [0] ⟨1, ![b]⟩ T 0x00000000#32 h hφ hacc (ix1 q) = ∑ p : Fin a, T (ix2 p q) :=
  (Ideal.multiReduction_add_single T _ h hφ hacc (ix1 q)).trans
    (Finset.sum_congr rfl fun k _ => congrArg T (funext fun ax => Fin.ext (by match ax with | ⟨0, _⟩ => rfl | ⟨1, _⟩ => rfl)))

/-! ## The stacked rows of one batch -/

variable (x y : FVec Ideal S1x1024x128 .f32)

/-- Row `i` of the stack: row `i` of the X block for `i < 1024`, row `i − 1024` of the Y block after. -/
def rows : Fin 2048 → Fin 128 → EReal := fun i d =>
  if h : i.val < 1024 then x (ix3 (0 : Fin 1) (⟨i.val, h⟩ : Fin 1024) d)
  else y (ix3 (0 : Fin 1) (⟨i.val - 1024, by have := i.isLt; omega⟩ : Fin 1024) d)

theorem rows_lo (p : Fin 1024) (d : Fin 128) : rows x y (lo p) d = x (ix3 (0 : Fin 1) p d) := by
  unfold rows lo; rw [dif_pos p.isLt]

theorem rows_hi (p : Fin 1024) (d : Fin 128) : rows x y (hi p) d = y (ix3 (0 : Fin 1) p d) := by
  unfold rows hi
  rw [dif_neg (by show ¬ (1024 + p.val < 1024); omega)]
  exact congrArg y (congrArg (fun q : Fin 1024 => ix3 (0 : Fin 1) q d) (Fin.ext (by show 1024 + p.val - 1024 = p.val; omega)))

/-- The stack read at `(i, d)`. -/
theorem stack_apply (i : Fin 2048) (d : Fin 128) : k0_pay1 (F := Ideal) x y (ix2 i d) = rows x y i d := by
  unfold k0_pay1 rows; try dsimp only
  by_cases h : i.val < 1024
  · rw [dif_pos h]
    refine (concatenate_pair_apply_left (t := S2048x128) (s₁ := S1024x128) (s₂ := S1024x128) (0 : Fin 2) _ _ _ (ix2 i d) rfl (ix2 (⟨i.val, h⟩ : Fin 1024) d)
      (fun b => by match b with | ⟨0, _⟩ => rfl | ⟨1, _⟩ => rfl)).trans ?_
    exact shapeCast_1ab_ab_apply x _ _ _
  · rw [dif_neg h]
    refine (concatenate_pair_apply_right (t := S2048x128) (s₁ := S1024x128) (s₂ := S1024x128) (0 : Fin 2) _ _ _ (ix2 i d) rfl rfl
      (ix2 (⟨i.val - 1024, by have := i.isLt; omega⟩ : Fin 1024) d)
      (fun b hb => by match b with | ⟨0, _⟩ => exact absurd rfl hb | ⟨1, _⟩ => rfl)
      (by show (i.val - 1024) + 1024 = i.val; omega)).trans ?_
    exact shapeCast_1ab_ab_apply y _ _ _

/-- The transposed stack read at `(d, j)`. -/
theorem stackT_apply (d : Fin 128) (j : Fin 2048) : k0_pay3 (F := Ideal) x y (ix2 d j) = rows x y j d := by
  unfold k0_pay3; try dsimp only
  exact (transpose_ix2_apply (k0_pay1 (F := Ideal) x y) _ d j).trans (stack_apply x y j d)

/-- The rows' sums of squares kept as a column, -/
theorem sqCol_apply (i : Fin 2048) (u : Fin 1) : k0_pay2 (F := Ideal) x y (ix2 i u) = rowSq (rows x y) i := by
  unfold k0_pay2 rowSq; try dsimp only
  refine (shapeCast_a_a1_apply _ _ i u).trans ?_
  refine (sum_axis1 _ _ _ _ i).trans ?_
  exact Finset.sum_congr rfl fun k _ => by rw [mulf_apply, stack_apply]

/-- and as a row. -/
theorem sqRow_apply (u : Fin 1) (j : Fin 2048) : k0_pay4 (F := Ideal) x y (ix2 u j) = rowSq (rows x y) j := by
  unfold k0_pay4 rowSq; try dsimp only
  refine (shapeCast_a_1a_apply _ _ u j).trans ?_
  refine (sum_axis0 _ _ _ _ j).trans ?_
  exact Finset.sum_congr rfl fun k _ => by rw [mulf_apply, stackT_apply]

/-- The bf16 copy of the transposed stack is the transposed stack. -/
theorem stackTb_apply (d : Fin 128) (j : Fin 2048) : k0_pay6 (F := Ideal) x y (ix2 d j) = rows x y j d :=
  stackT_apply x y d j

/-- The bf16 copy of the stack's first half is X's rows, its second half Y's. -/
theorem xRows_apply (p : Fin 1024) (d : Fin 128) : k0_pay7 (F := Ideal) x y (ix2 p d) = rows x y (lo p) d := by
  unfold k0_pay7 k0_pay5; try dsimp only
  exact (slice2_axis0_apply 0 _ _ p d (lo p) (by show p.val = 0 + p.val; omega)).trans (stack_apply x y (lo p) d)

theorem yRows_apply (p : Fin 1024) (d : Fin 128) : k0_pay8 (F := Ideal) x y (ix2 p d) = rows x y (hi p) d := by
  unfold k0_pay8 k0_pay5; try dsimp only
  exact (slice2_axis0_apply 1024 _ _ p d (hi p) rfl).trans (stack_apply x y (hi p) d)

/-- The column of sums of squares, cut the same way. -/
theorem xSq_apply (p : Fin 1024) (u : Fin 1) : k0_pay9 (F := Ideal) x y (ix2 p u) = rowSq (rows x y) (lo p) := by
  unfold k0_pay9; try dsimp only
  exact (slice2_axis0_apply 0 _ _ p u (lo p) (by show p.val = 0 + p.val; omega)).trans (sqCol_apply x y (lo p) u)

theorem ySq_apply (p : Fin 1024) (u : Fin 1) : k0_pay10 (F := Ideal) x y (ix2 p u) = rowSq (rows x y) (hi p) := by
  unfold k0_pay10; try dsimp only
  exact (slice2_axis0_apply 1024 _ _ p u (hi p) rfl).trans (sqCol_apply x y (hi p) u)

end Cert.KernelIdeal.MmdValue

end
-- ==== Proof.KiValueB.lean ====
/-
  The four stored operands of one batch, at their one index. A tile of clamped squared distances between 1024 rows
  and all 2048, read at (p, j), is max (s_p + s_j − 2 Σ_d a_p,d · b_d,j) 0; with X's (Y's) rows and their sums of
  squares it is the distance from X's (Y's) row p to row j. Exponentiating minus that over a one-cell bandwidth gives
  the kernel tile. Summing a tile along its columns and then along its rows is the double sum of its entries. So
  phase 0 stores the X rows' total distance, phase 1 adds the Y rows' and divides by n² − n, phase 2 stores
  (XX − 2·XY)/S² and phase 3 adds YY/S² to what the cell held.
-/
import proofs.«107039_j55843164782710_1_alg».proof.Proof.KiValueA

noncomputable section

namespace Cert.KernelIdeal.MmdValue

open Cert.KernelIdeal Cert.KernelIdeal.Gen
open Idealize.ShloMosaic Idealize.ShloMosaic.ValueIdx Cert.MmdSpec Cert.LibKeepdims

/-! ## The matrix product of a 1024×128 by a 128×2048 operand into zero -/

theorem lhs_row (i : S1024x2048.Idx) (q : dot_S1024x128_S128x2048_S1024x2048_1_0_0_1_n_n.contr.Idx) : (dot_S1024x128_S128x2048_S1024x2048_1_0_0_1_n_n.lhsIdx i q 0).val = (i 0).val := by
  unfold DotDims.lhsIdx
  rw [dif_neg (show ¬(0 : Fin S1024x128.rank) ∈ dot_S1024x128_S128x2048_S1024x2048_1_0_0_1_n_n.lhsBatch by decide),
    dif_pos (show (0 : Fin S1024x128.rank) ∈ dot_S1024x128_S128x2048_S1024x2048_1_0_0_1_n_n.lhsNonContracting by decide)]
  rfl
theorem lhs_col (i : S1024x2048.Idx) (q : dot_S1024x128_S128x2048_S1024x2048_1_0_0_1_n_n.contr.Idx) : (dot_S1024x128_S128x2048_S1024x2048_1_0_0_1_n_n.lhsIdx i q 1).val = (q ⟨0, by decide⟩).val :=
  dot_S1024x128_S128x2048_S1024x2048_1_0_0_1_n_n.lhsIdx_val_of_single rfl i q
theorem rhs_row (i : S1024x2048.Idx) (q : dot_S1024x128_S128x2048_S1024x2048_1_0_0_1_n_n.contr.Idx) : (dot_S1024x128_S128x2048_S1024x2048_1_0_0_1_n_n.rhsIdx i q 0).val = (q ⟨0, by decide⟩).val :=
  dot_S1024x128_S128x2048_S1024x2048_1_0_0_1_n_n.rhsIdx_val_of_single rfl i q
theorem rhs_col (i : S1024x2048.Idx) (q : dot_S1024x128_S128x2048_S1024x2048_1_0_0_1_n_n.contr.Idx) : (dot_S1024x128_S128x2048_S1024x2048_1_0_0_1_n_n.rhsIdx i q 1).val = (i 1).val := by
  unfold DotDims.rhsIdx
  rw [dif_neg (show ¬(1 : Fin S128x2048.rank) ∈ dot_S1024x128_S128x2048_S1024x2048_1_0_0_1_n_n.rhsBatch by decide),
    dif_pos (show (1 : Fin S128x2048.rank) ∈ dot_S1024x128_S128x2048_S1024x2048_1_0_0_1_n_n.rhsNonContracting by decide)]
  rfl

/-- Entry (p, j) of the product is Σ_d a (p, d) · b (d, j). -/
theorem product_apply (A : FVec Ideal S1024x128 .bf16) (B : FVec Ideal S128x2048 .bf16) (p : Fin 1024) (j : Fin 2048) :
    matmul dot_S1024x128_S128x2048_S1024x2048_1_0_0_1_n_n none A B (constant (F := Ideal) S1024x2048 .f32 0x00000000#32) (ix2 p j)
      = ∑ d : Fin 128, A (ix2 p d) * B (ix2 d j) := by
  refine (Ideal.matmul_constant_zero_apply dot_S1024x128_S128x2048_S1024x2048_1_0_0_1_n_n none A B (ix2 p j)).trans ?_
  rw [← Equiv.sum_comp (ValueIdx.contrEquiv1 dot_S1024x128_S128x2048_S1024x2048_1_0_0_1_n_n 128 rfl rfl).symm]
  refine Finset.sum_congr rfl fun k _ => ?_
  have hk := ValueIdx.contrEquiv1_symm_val dot_S1024x128_S128x2048_S1024x2048_1_0_0_1_n_n 128 rfl rfl k
  have el : dot_S1024x128_S128x2048_S1024x2048_1_0_0_1_n_n.lhsIdx (ix2 p j) ((ValueIdx.contrEquiv1 dot_S1024x128_S128x2048_S1024x2048_1_0_0_1_n_n 128 rfl rfl).symm k) = ix2 p k := funext fun a => Fin.ext (by
    match a with
    | ⟨0, _⟩ => exact lhs_row _ _
    | ⟨1, _⟩ => exact (lhs_col _ _).trans hk)
  have er : dot_S1024x128_S128x2048_S1024x2048_1_0_0_1_n_n.rhsIdx (ix2 p j) ((ValueIdx.contrEquiv1 dot_S1024x128_S128x2048_S1024x2048_1_0_0_1_n_n 128 rfl rfl).symm k) = ix2 k j := funext fun a => Fin.ext (by
    match a with
    | ⟨0, _⟩ => exact (rhs_row _ _).trans hk
    | ⟨1, _⟩ => exact rhs_col _ _)
  rw [el, er]

/-! ## The distance tile and the kernel tile -/

def distTile (A : FVec Ideal S1024x128 .bf16) (B : FVec Ideal S128x2048 .bf16) (sa : FVec Ideal S1024x1 .f32) (sb : FVec Ideal S1x2048 .f32) :
    FVec Ideal S1024x2048 .f32 :=
  maximumf (subf (addf (broadcastTo S1024x2048 sa broadcasts_S1024x1_S1024x2048) (broadcastTo S1024x2048 sb broadcasts_S1x2048_S1024x2048))
      (mulf (broadcast S1024x2048 (Scalar.ofBits (F := Ideal) .f32 0x40000000#32))
        (matmul dot_S1024x128_S128x2048_S1024x2048_1_0_0_1_n_n none A B (constant (F := Ideal) S1024x2048 .f32 0x00000000#32))))
    (broadcast S1024x2048 (Scalar.ofBits (F := Ideal) .f32 0x00000000#32))

theorem distTile_apply (A : FVec Ideal S1024x128 .bf16) (B : FVec Ideal S128x2048 .bf16) (sa : FVec Ideal S1024x1 .f32) (sb : FVec Ideal S1x2048 .f32)
    (p : Fin 1024) (j : Fin 2048) :
    distTile A B sa sb (ix2 p j)
      = max ((sa (ix2 p (0 : Fin 1)) + sb (ix2 (0 : Fin 1) j)) - two * ∑ d : Fin 128, A (ix2 p d) * B (ix2 d j)) zero := by
  unfold distTile
  rw [maximumf_apply, subf_apply, addf_apply, mulf_apply, broadcast_apply, broadcast_apply, broadcastTo_a1_ab_apply,
    broadcastTo_1b_ab_apply, product_apply]
  rfl

def expTile (A : FVec Ideal S1024x128 .bf16) (B : FVec Ideal S128x2048 .bf16) (sa : FVec Ideal S1024x1 .f32) (sb : FVec Ideal S1x2048 .f32)
    (w : FVec Ideal S1x1 .f32) : FVec Ideal S1024x2048 .f32 :=
  exp (divf (subf (broadcast S1024x2048 (Scalar.ofBits (F := Ideal) .f32 0x00000000#32)) (distTile A B sa sb))
    (broadcastTo S1024x2048 w broadcasts_S1x1_S1024x2048))

theorem expTile_apply (A : FVec Ideal S1024x128 .bf16) (B : FVec Ideal S128x2048 .bf16) (sa : FVec Ideal S1024x1 .f32) (sb : FVec Ideal S1x2048 .f32)
    (w : FVec Ideal S1x1 .f32) (p : Fin 1024) (j : Fin 2048) :
    expTile A B sa sb w (ix2 p j) = Ideal.exp (Ideal.div (-(distTile A B sa sb (ix2 p j))) (w (ix2 (0 : Fin 1) (0 : Fin 1)))) := by
  unfold expTile
  show Ideal.exp (Ideal.div (zero - distTile A B sa sb (ix2 p j)) (broadcastTo S1024x2048 w broadcasts_S1x1_S1024x2048 (ix2 p j))) = _
  rw [zero_eq, zero_sub, broadcastTo_apply w broadcasts_S1x1_S1024x2048 (ix2 p j) (ix2 (0 : Fin 1) (0 : Fin 1))
    (fun ax => by match ax with | ⟨0, _⟩ => rfl | ⟨1, _⟩ => rfl)]

/-! ## A tile's double sum -/

/-- Summed along its columns, kept as a column, summed along the rows and kept as one cell: the sum of all entries. -/
theorem tot_apply {b : ℕ} (T : FVec Ideal ⟨2, ![1024, b]⟩ .f32) (h1 : (⟨2, ![1024, b]⟩ : Shape).Reduces [1] ⟨1, ![1024]⟩)
    (c1 : (⟨1, ![1024]⟩ : Shape).ShapeCasts ⟨2, ![1024, 1]⟩) (h0 : (⟨2, ![1024, 1]⟩ : Shape).Reduces [0] ⟨1, ![1]⟩)
    (c0 : (⟨1, ![1]⟩ : Shape).ShapeCasts ⟨2, ![1, 1]⟩) (hφ hφ' : FKind.Formats .f32)
    (hacc : (0x00000000#32 : BitVec 32) = FKind.add.neutral .f32 hφ) (hacc' : (0x00000000#32 : BitVec 32) = FKind.add.neutral .f32 hφ')
    (u v : Fin 1) :
    shapeCast ⟨2, ![1, 1]⟩ (multiReduction .add [0] ⟨1, ![1]⟩ (shapeCast ⟨2, ![1024, 1]⟩
        (multiReduction .add [1] ⟨1, ![1024]⟩ T 0x00000000#32 h1 hφ hacc) c1) 0x00000000#32 h0 hφ' hacc') c0 (ix2 u v)
      = ∑ p : Fin 1024, ∑ q : Fin b, T (ix2 p q) := by
  refine (shapeCast_a_1a_apply _ c0 u v).trans ?_
  refine (sum_axis0 _ h0 hφ' hacc' v).trans ?_
  refine Finset.sum_congr rfl fun p _ => ?_
  refine (shapeCast_a_a1_apply _ c1 p v).trans ?_
  exact sum_axis1 T h1 hφ hacc p

variable (x y : FVec Ideal S1x1024x128 .f32)

/-- With X's rows (and their sums of squares) against the transposed stack, the tile holds the distances from X's rows; -/
theorem distTile_x (p : Fin 1024) (j : Fin 2048) :
    distTile (k0_pay7 (F := Ideal) x y) (k0_pay6 (F := Ideal) x y) (k0_pay9 (F := Ideal) x y) (k0_pay4 (F := Ideal) x y) (ix2 p j)
      = sqDist (rows x y) (lo p) j := by
  rw [distTile_apply, xSq_apply, sqRow_apply]
  unfold sqDist gram
  simp only [xRows_apply, stackTb_apply]

/-- with Y's, from Y's rows. -/
theorem distTile_y (p : Fin 1024) (j : Fin 2048) :
    distTile (k0_pay8 (F := Ideal) x y) (k0_pay6 (F := Ideal) x y) (k0_pay10 (F := Ideal) x y) (k0_pay4 (F := Ideal) x y) (ix2 p j)
      = sqDist (rows x y) (hi p) j := by
  rw [distTile_apply, ySq_apply, sqRow_apply]
  unfold sqDist gram
  simp only [yRows_apply, stackTb_apply]

theorem expTile_x (w : FVec Ideal S1x1 .f32) (p : Fin 1024) (j : Fin 2048) :
    expTile (k0_pay7 (F := Ideal) x y) (k0_pay6 (F := Ideal) x y) (k0_pay9 (F := Ideal) x y) (k0_pay4 (F := Ideal) x y) w (ix2 p j)
      = ker (rows x y) (w (ix2 (0 : Fin 1) (0 : Fin 1))) (lo p) j := by
  rw [expTile_apply, distTile_x]; rfl

theorem expTile_y (w : FVec Ideal S1x1 .f32) (p : Fin 1024) (j : Fin 2048) :
    expTile (k0_pay8 (F := Ideal) x y) (k0_pay6 (F := Ideal) x y) (k0_pay10 (F := Ideal) x y) (k0_pay4 (F := Ideal) x y) w (ix2 p j)
      = ker (rows x y) (w (ix2 (0 : Fin 1) (0 : Fin 1))) (hi p) j := by
  rw [expTile_apply, distTile_y]; rfl

/-! ## The four stored operands -/

/-- Phase 0's: the total distance from X's rows. -/
theorem pay11_apply (u v : Fin 1) : k0_pay11 (F := Ideal) x y (ix2 u v) = rowsTotal (rows x y) lo := by
  unfold k0_pay11; dsimp only
  refine (congrFun (shapeCast_self _ _) _).trans ?_
  refine (tot_apply _ _ _ _ _ _ _ _ _ u v).trans ?_
  exact Finset.sum_congr rfl fun p _ => Finset.sum_congr rfl fun j _ => distTile_x x y p j

/-- Phase 1's: what the cell held plus the total distance from Y's rows, over n² − n. -/
theorem pay12_apply (a : FVec Ideal S1x1 .f32) (u v : Fin 1) :
    k0_pay12 (F := Ideal) x y a (ix2 u v) = Ideal.div (a (ix2 u v) + rowsTotal (rows x y) hi) nPairs := by
  unfold k0_pay12; dsimp only
  refine (congrFun (shapeCast_self _ _) _).trans ?_
  refine (divf_apply _ _ _).trans ?_
  refine congrArg₂ Ideal.div ?_ rfl
  refine (addf_apply _ _ _).trans ?_
  refine congrArg (a (ix2 u v) + ·) ?_
  refine (tot_apply _ _ _ _ _ _ _ _ _ u v).trans ?_
  exact Finset.sum_congr rfl fun p _ => Finset.sum_congr rfl fun j _ => distTile_y x y p j

/-- Phase 2's: (XX − 2·XY) / S² at the bandwidth the scratch cell holds. -/
theorem pay13_apply (a : FVec Ideal S1x1 .f32) (u v w : Fin 1) :
    k0_pay13 (F := Ideal) x y a (ix3 u v w)
      = Ideal.div (blockSum (rows x y) (a (ix2 (0 : Fin 1) (0 : Fin 1))) lo lo - two * blockSum (rows x y) (a (ix2 (0 : Fin 1) (0 : Fin 1))) lo hi) sSq := by
  unfold k0_pay13; dsimp only
  refine (shapeCast_ab_1ab_apply _ _ u v w).trans ?_
  refine (divf_apply _ _ _).trans ?_
  refine congrArg₂ Ideal.div ?_ rfl
  refine (subf_apply _ _ _).trans ?_
  refine congrArg₂ (· - ·) ?_ ?_
  · refine (tot_apply _ _ _ _ _ _ _ _ _ v w).trans ?_
    refine Finset.sum_congr rfl fun p _ => Finset.sum_congr rfl fun q _ => ?_
    refine (slice2_axis1_apply 0 _ _ p q (lo q) (by show q.val = 0 + q.val; omega)).trans ?_
    exact expTile_x x y a p (lo q)
  · refine (mulf_apply _ _ _).trans ?_
    refine congrArg (two * ·) ?_
    refine (tot_apply _ _ _ _ _ _ _ _ _ v w).trans ?_
    refine Finset.sum_congr rfl fun p _ => Finset.sum_congr rfl fun q _ => ?_
    refine (slice2_axis1_apply 1024 _ _ p q (hi q) rfl).trans ?_
    exact expTile_x x y a p (hi q)

/-- Phase 3's: what the output cell held plus YY / S². -/
theorem pay14_apply (a : FVec Ideal S1x1 .f32) (o : FVec Ideal S1x1x1 .f32) (u v w : Fin 1) :
    k0_pay14 (F := Ideal) x y a o (ix3 u v w)
      = o (ix3 (0 : Fin 1) v w) + Ideal.div (blockSum (rows x y) (a (ix2 (0 : Fin 1) (0 : Fin 1))) hi hi) sSq := by
  unfold k0_pay14; dsimp only
  refine (shapeCast_ab_1ab_apply _ _ u v w).trans ?_
  refine (addf_apply _ _ _).trans ?_
  refine congrArg₂ (· + ·) ?_ ?_
  · exact shapeCast_1ab_ab_apply o _ v w
  · refine (divf_apply _ _ _).trans ?_
    refine congrArg₂ Ideal.div ?_ rfl
    refine (tot_apply _ _ _ _ _ _ _ _ _ v w).trans ?_
    refine Finset.sum_congr rfl fun p _ => Finset.sum_congr rfl fun q _ => ?_
    refine (slice2_axis1_apply 1024 _ _ p q (hi q) rfl).trans ?_
    exact expTile_y x y a p (hi q)

end Cert.KernelIdeal.MmdValue

end
-- ==== Proof.KiFinal.lean ====
/-
  The kernel's result as a function of the argument arrays. The three windows' block indices at point t are all
  (t / 4, 0, 0): the four phases of batch b = t / 4 see the same X and Y blocks, rows of the argument arrays at
  batch b, and the output block is cell (b, 0, 0). Following the scratch cell and the output cell through the four
  phases of a batch: after phase 0 the scratch holds the X rows' total distance, after phase 1 the bandwidth, and
  after phase 3 the output cell holds the batch's grouped discrepancy. The block is written back after phase 3, the
  32 write-backs cover the output array, so the array ends holding the 32 discrepancies, and the host's sum after
  the region is zero plus their sum.
-/
import proofs.«107039_j55843164782710_1_alg».proof.Proof.KiFrame
import proofs.«107039_j55843164782710_1_alg».proof.Proof.KiValueB
import Idealize.ShloMosaic.Lib.StableHlo.Run

set_option maxRecDepth 16384

noncomputable section

namespace Cert.KernelIdeal.MmdFinal

open Idealize.ShloMosaic Idealize.ShloMosaic.TcCoe Idealize.SL.Sem Idealize.ShloMosaic.StableHlo
open Idealize.ShloMosaic.ValueIdx Cert.MmdSpec
open Idealize.ShloMosaic.Pipeline (Dat)
open Cert.KernelIdeal Cert.KernelIdeal.Gen Cert.KernelIdeal.Mmd Cert.KernelIdeal.MmdValue

variable (m : (ℓ : Loc nD τ sig) → Buf (Elt Ideal) ℓ) (ρ : Dev nD → PrngReg)

/-! ## The blocks of a batch -/

/-- Batch `b` of the first and of the second argument array, as one block. -/
def xBlock (c : Dev nD) (b : Fin 32) : FVec Ideal S1x1024x128 .f32 := fun j =>
  m ((c : Thread nD τ).loc main_arg0) (ix3 b (⟨(j 1).val, (j 1).isLt⟩ : Fin 1024) (⟨(j 2).val, (j 2).isLt⟩ : Fin 128))
def yBlock (c : Dev nD) (b : Fin 32) : FVec Ideal S1x1024x128 .f32 := fun j =>
  m ((c : Thread nD τ).loc main_arg1) (ix3 b (⟨(j 1).val, (j 1).isLt⟩ : Fin 1024) (⟨(j 2).val, (j 2).isLt⟩ : Fin 128))

/-- The stacked rows of batch `b`. -/
def batchRows (c : Dev nD) (b : Fin 32) : Fin 2048 → Fin 128 → EReal := rows (xBlock m c b) (yBlock m c b)

/-- The batch a point belongs to. -/
def batchOf (t : Fin cfg0.N) : Fin 32 := ⟨t.val / 4, by have := t.isLt; have : cfg0.N = 128 := N_0; omega⟩

theorem batchOf_pred (t : Fin cfg0.N) (h : t.val % 4 ≠ 0) :
    batchOf ⟨t.val - 1, Nat.lt_of_le_of_lt (Nat.sub_le _ _) t.isLt⟩ = batchOf t :=
  Fin.ext (by show (t.val - 1) / 4 = t.val / 4; omega)

/-- The printed index maps, decided over the grid. -/
theorem blockIdx : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

theorem iblk_x (c : Dev nD) (t : Fin cfg0.N) : iblk m c 0 t = xBlock m c (batchOf t) := by
  obtain ⟨e0, e1, e2, -⟩ := blockIdx t
  funext j
  show V m c main_arg0 (((cfg0.win 0).blk t).view.emb j) = m ((c : Thread nD τ).loc main_arg0) _
  refine congrArg (m ((c : Thread nD τ).loc main_arg0)) (funext fun a => Fin.ext ?_)
  match a with
  | ⟨0, _⟩ => show win0_0.index t (0 : Fin 3) * 1 + 1 * (j 0).val = t.val / 4; have hj : (j 0).val < 1 := (j 0).isLt; omega
  | ⟨1, _⟩ => show win0_0.index t (1 : Fin 3) * 1024 + 1 * (j 1).val = (j 1).val; omega
  | ⟨2, _⟩ => show win0_0.index t (2 : Fin 3) * 128 + 1 * (j 2).val = (j 2).val; omega

theorem iblk_y (c : Dev nD) (t : Fin cfg0.N) : iblk m c 1 t = yBlock m c (batchOf t) := by
  obtain ⟨-, -, -, e0, e1, e2, -⟩ := blockIdx t
  funext j
  show V m c main_arg1 (((cfg0.win 1).blk t).view.emb j) = m ((c : Thread nD τ).loc main_arg1) _
  refine congrArg (m ((c : Thread nD τ).loc main_arg1)) (funext fun a => Fin.ext ?_)
  match a with
  | ⟨0, _⟩ => show win0_1.index t (0 : Fin 3) * 1 + 1 * (j 0).val = t.val / 4; have hj : (j 0).val < 1 := (j 0).isLt; omega
  | ⟨1, _⟩ => show win0_1.index t (1 : Fin 3) * 1024 + 1 * (j 1).val = (j 1).val; omega
  | ⟨2, _⟩ => show win0_1.index t (2 : Fin 3) * 128 + 1 * (j 2).val = (j 2).val; omega

/-! ## The two cells through the phases of a batch -/

theorem acc_ph0 (c : Dev nD) (t : Fin cfg0.N) (h : t.val % 4 = 0) (u v : Fin 1) :
    accAt m c t.val t.isLt (ix2 u v) = rowsTotal (batchRows m c (batchOf t)) lo := by
  rw [accAt_ph0 m c t h, iblk_x, iblk_y]
  exact pay11_apply _ _ u v

theorem acc_ph1 (c : Dev nD) (t : Fin cfg0.N) (h : t.val % 4 = 1) (u v : Fin 1) :
    accAt m c t.val t.isLt (ix2 u v) = bandwidth (batchRows m c (batchOf t)) := by
  rw [accAt_ph1 m c t h, iblk_x, iblk_y, pay12_apply,
    acc_ph0 m c ⟨t.val - 1, Nat.lt_of_le_of_lt (Nat.sub_le _ _) t.isLt⟩ (by show (t.val - 1) % 4 = 0; omega) u v,
    batchOf_pred t (by omega)]
  rfl

theorem acc_ph2 (c : Dev nD) (t : Fin cfg0.N) (h : t.val % 4 = 2) (u v : Fin 1) :
    accAt m c t.val t.isLt (ix2 u v) = bandwidth (batchRows m c (batchOf t)) := by
  rw [accAt_keep m c t (.inl h),
    acc_ph1 m c ⟨t.val - 1, Nat.lt_of_le_of_lt (Nat.sub_le _ _) t.isLt⟩ (by show (t.val - 1) % 4 = 1; omega) u v,
    batchOf_pred t (by omega)]

theorem out_ph2 (c : Dev nD) (t : Fin cfg0.N) (h : t.val % 4 = 2) (u v w : Fin 1) :
    outAt m c t.val t.isLt (ix3 u v w)
      = Ideal.div (blockSum (batchRows m c (batchOf t)) (bandwidth (batchRows m c (batchOf t))) lo lo
          - two * blockSum (batchRows m c (batchOf t)) (bandwidth (batchRows m c (batchOf t))) lo hi) sSq := by
  rw [outAt_ph2 m c t h, iblk_x, iblk_y, pay13_apply,
    acc_ph1 m c ⟨t.val - 1, Nat.lt_of_le_of_lt (Nat.sub_le _ _) t.isLt⟩ (by show (t.val - 1) % 4 = 1; omega) 0 0,
    batchOf_pred t (by omega)]
  rfl

theorem out_ph3 (c : Dev nD) (t : Fin cfg0.N) (h : t.val % 4 = 3) (u v w : Fin 1) :
    outAt m c t.val t.isLt (ix3 u v w) = mmdGrouped (batchRows m c (batchOf t)) := by
  rw [outAt_ph3 m c t h, iblk_x, iblk_y, pay14_apply,
    acc_ph2 m c ⟨t.val - 1, Nat.lt_of_le_of_lt (Nat.sub_le _ _) t.isLt⟩ (by show (t.val - 1) % 4 = 2; omega) 0 0,
    out_ph2 m c ⟨t.val - 1, Nat.lt_of_le_of_lt (Nat.sub_le _ _) t.isLt⟩ (by show (t.val - 1) % 4 = 2; omega) 0 v w,
    batchOf_pred t (by omega)]
  rfl

/-! ## The output array after the run -/

/-- Cell (b, 0, 0): batch b's discrepancy. -/
def perBatch (c : Dev nD) : S32x1x1.Idx → EReal := fun i => mmdGrouped (batchRows m c (⟨(i 0).val, (i 0).isLt⟩ : Fin 32))

theorem flushed_eq (c : Dev nD) (t : Fin cfg0.N) (hf : (cfg0.win 2).flush t = true) :
    (dats m 0 c).flushed 2 t = ((cfg0.win 2).blk t).view.read (Elt Ideal) (perBatch m c) := by
  have h3 : t.val % 4 = 3 := (flush0_2 t).mp hf
  obtain ⟨-, -, -, -, -, -, e0, e1, e2⟩ := blockIdx t
  show (cfg0.win 2).cut (grid0.coords t) ((dats m 0 c).after 2 t) = _
  rw [after_o]
  funext j
  obtain ⟨u, v, w, rfl⟩ : ∃ u v w : Fin 1, j = ix3 u v w := ⟨j 0, j 1, j 2, eq_ix3 j⟩
  show outAt m c t.val t.isLt (ix3 u v w) = perBatch m c (((cfg0.win 2).blk t).view.emb (ix3 u v w))
  rw [out_ph3 m c t h3 u v w]
  unfold perBatch
  refine congrArg (fun b => mmdGrouped (batchRows m c b)) (Fin.ext ?_)
  show t.val / 4 = win0_2.index t (0 : Fin 3) * 1 + 1 * u.val
  have hu : u.val < 1 := u.isLt
  omega

theorem mem_outBlock (t : Fin cfg0.N) (i : S32x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0).slice (win0_2.rect t)).set ↔ _
  rw [View.set_slice_whole, Rect.mem_set_unit]
  exact Iff.rfl

theorem final_out (c : Dev nD) : (dats m 0 c).arrAt 2 cfg0.N = perBatch m c :=
  (dats m 0 c).arrAt_eq_of_cover 2 (perBatch m c) (flushed_eq m c) fun i => by
    have hN : cfg0.N = 128 := N_0
    have hi0 : (i 0).val < 32 := (i 0).isLt
    have hi1 : (i 1).val < 1 := (i 1).isLt
    have hi2 : (i 2).val < 1 := (i 2).isLt
    let t : Fin cfg0.N := ⟨4 * (i 0).val + 3, by omega⟩
    obtain ⟨-, -, -, -, -, -, e0, e1, e2⟩ := blockIdx t
    refine ⟨t, (flush0_2 t).mpr (by show (4 * (i 0).val + 3) % 4 = 3; omega), ?_⟩
    rw [mem_outBlock]
    intro a
    have ht : t.val = 4 * (i 0).val + 3 := rfl
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 1 ≤ (i 1).val ∧ (i 1).val < win0_2.index t (1 : Fin 3) * 1 + 1; omega
    | ⟨2, _⟩ => show win0_2.index t (2 : Fin 3) * 1 ≤ (i 2).val ∧ (i 2).val < win0_2.index t (2 : Fin 3) * 1 + 1; omega

/-! ## The host's sum after the region -/

/-- The output array's cells are its 32 leading coordinates. -/
def cellEquiv : S32x1x1.Idx ≃ Fin 32 where
  toFun i := ⟨(i 0).val, (i 0).isLt⟩
  invFun b := ix3 b (0 : Fin 1) (0 : Fin 1)
  left_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv b := rfl

/-- What the program returns: zero plus the sum of the 32 batches' discrepancies. -/
def kernelResult (c : Dev nD) : EReal := zero + ∑ b : Fin 32, mmdGrouped (batchRows m c b)

theorem tail_eq (c : Dev nD) :
    Pipeline.afterTail₀ cfgs (dats (F := Ideal) m) 0 (V0 m) [hostOps1] c main_v1 = fun _ => kernelResult m c := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.tc.devRef main_v0) = perBatch m c :=
    (Pipeline.withArrays_arr spec0 launch0.win.arr_inj c _ _ 2).trans (final_out m c)
  rw [hw]
  funext j
  simp only [Host.reduceAdd, Ideal.hostReduceAdd_def]
  rw [Ideal.hostReduceAdd_total reducesTo_S32x1x1_S_d0_1_2 (fun b => b.elim0)]
  unfold kernelResult
  refine congrArg (zero + ·) ?_
  exact Fintype.sum_equiv cellEquiv _ _ (fun i => rfl)

/-- The kernel's run at the extended reals: it returns `kernelResult` of the argument arrays and keeps them. -/
theorem run : θ_run (defs (F := Ideal)) (onTc (τ := τ) (main (F := Ideal))) ⟨m, fun _ => 0, ρ⟩ (fun r => ∀ c : Dev nD,
      r.2.mem ((c.tc : Thread nD τ).loc main_v1) = (fun _ => kernelResult m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v1 (Pipeline.mem_restRefs_of main_v1 rfl (fun w => by fin_cases w <;> decide))).trans (tail_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.MmdFinal

end
-- ==== Proof.RefSide.lean ====
/-
  The reference, read index by index over the extended reals, batch by batch. Its stacked array at (b, i, d) is the
  stacked rows of batch b; its row sums of squares, Gram matrix and clamped squared distances at batch b are those of
  these rows; the sum over both matrix axes is the double sum; the bandwidth is multiplied by 2⁰ = 1; the kernel
  matrix carries one singleton axis that is summed away; its three blocks are cut at rows and columns 0 and 1024.
  So entry b of the vector the reference finally sums is the termwise form of batch b's discrepancy.
-/
import proofs.«107039_j55843164782710_1_alg».proof.Proof.Gen.ReferenceIdeal.Read
import proofs.«107039_j55843164782710_1_alg».proof.Proof.MmdSpec
import Idealize.ShloMosaic.Lib.ValueLayout

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.MmdSpec

/-! ## A sum over the two matrix axes of a stack of matrices -/

/-- The host's sum over axes 1 and 2 of a [32, A, B] array, at batch `b`: the initial value plus the double sum. -/
theorem hostSum_batch {A B : ℕ} (h' : (⟨3, ![32, A, B]⟩ : Shape).ReducesTo [1, 2] ⟨1, ![32]⟩)
    (x : (⟨3, ![32, A, B]⟩ : Shape).Idx → EReal) (init : EReal) (b : Fin 32) :
    Ideal.hostReduceAdd h' x init (ix1 b) = init + ∑ p : Fin A, ∑ q : Fin B, x (ix3 b p q) := by
  unfold Ideal.hostReduceAdd
  refine congrArg (init + ·) ?_
  have hd : ∀ i : (⟨3, ![32, A, B]⟩ : Shape).Idx, (h'.drop i = ix1 b) ↔ i 0 = b := fun i => by
    constructor
    · intro e
      have e0 := congrArg Fin.val (congrFun e 0)
      exact Fin.ext e0
    · intro e
      funext a
      match a with
      | ⟨0, _⟩ => exact Fin.ext (congrArg Fin.val e)
  rw [← Fintype.sum_prod_type' (fun (p : Fin A) (q : Fin B) => x (ix3 b p q))]
  refine (Finset.sum_bij (fun (t : Fin A × Fin B) _ => (ix3 b t.1 t.2 : (⟨3, ![32, A, B]⟩ : Shape).Idx)) ?_ ?_ ?_ ?_).symm
  · intro t _
    exact Finset.mem_filter.mpr ⟨Finset.mem_univ _, (hd _).mpr rfl⟩
  · intro t _ t' _ e
    exact Prod.ext (congrFun e 1) (congrFun e 2)
  · intro i hi
    have h0 : i 0 = b := (hd i).mp (Finset.mem_filter.mp hi).2
    refine ⟨(i 1, i 2), Finset.mem_univ _, ?_⟩
    rw [← h0]; exact (eq_ix3 i).symm
  · intro t _; rfl

variable (x0 x1 : (⟨S32x1024x128, .f32⟩ : BufTy).Contents (Elt Ideal))

/-! ## The stacked rows of a batch -/

def refRows (b : Fin 32) : Fin 2048 → Fin 128 → EReal := fun i d =>
  if h : i.val < 1024 then x0 (ix3 b (⟨i.val, h⟩ : Fin 1024) d)
  else x1 (ix3 b (⟨i.val - 1024, by have := i.isLt; omega⟩ : Fin 1024) d)

theorem stack_apply (b : Fin 32) (i : Fin 2048) (d : Fin 128) :
    val_main_v7 (F := Ideal) x0 x1 (ix3 b i d) = refRows x0 x1 b i d := by
  unfold val_main_v7 refRows
  by_cases h : i.val < 1024
  · rw [dif_pos h]
    exact concatenate_pair_apply_left (t := S32x2048x128) (s₁ := S32x1024x128) (s₂ := S32x1024x128) (1 : Fin 3) x0 x1 _ (ix3 b i d) rfl
      (ix3 b (⟨i.val, h⟩ : Fin 1024) d) (fun a => (by match a with | ⟨0, _⟩ => rfl | ⟨1, _⟩ => rfl | ⟨2, _⟩ => rfl))
  · rw [dif_neg h]
    exact concatenate_pair_apply_right (t := S32x2048x128) (s₁ := S32x1024x128) (s₂ := S32x1024x128) (1 : Fin 3) x0 x1 _ (ix3 b i d) rfl rfl
      (ix3 b (⟨i.val - 1024, by have := i.isLt; omega⟩ : Fin 1024) d)
      (fun a ha => by match a with | ⟨0, _⟩ => rfl | ⟨1, _⟩ => exact absurd rfl ha | ⟨2, _⟩ => rfl)
      (by show (i.val - 1024) + 1024 = i.val; omega)

/-! ## Sums of squares, Gram entries, distances -/

theorem rowSq_apply (b : Fin 32) (i : Fin 2048) : val_main_v9 (F := Ideal) x0 x1 (ix2 b i) = rowSq (refRows x0 x1 b) i := by
  rw [val_main_v9_apply]
  show zero + _ = _
  rw [zero_eq, zero_add]; unfold rowSq
  refine Finset.sum_congr rfl fun k _ => ?_
  rw [show idx_main_v9 (ix2 b i) k = ix3 b i k from funext fun a => Fin.ext (by match a with | ⟨0, _⟩ => rfl | ⟨1, _⟩ => rfl | ⟨2, _⟩ => rfl), val_main_v8_apply, stack_apply]
  rfl

theorem gram_apply (b : Fin 32) (i j : Fin 2048) : val_main_v16 (F := Ideal) x0 x1 (ix3 b i j) = gram (refRows x0 x1 b) i j := by
  rw [val_main_v16_apply]; unfold gram
  refine Finset.sum_congr rfl fun k _ => ?_
  rw [val_main_v15_apply, show lidx_main_v16 (ix3 b i j) k = ix3 b i k from funext fun a => Fin.ext (by match a with | ⟨0, _⟩ => rfl | ⟨1, _⟩ => rfl | ⟨2, _⟩ => rfl),
    show idx_main_v15 (ridx_main_v16 (ix3 b i j) k) = ix3 b j k from funext fun a => Fin.ext (by match a with | ⟨0, _⟩ => rfl | ⟨1, _⟩ => rfl | ⟨2, _⟩ => rfl), stack_apply, stack_apply]

theorem sqDist_apply (b : Fin 32) (i j : Fin 2048) : val_main_v21 (F := Ideal) x0 x1 (ix3 b i j) = sqDist (refRows x0 x1 b) i j := by
  rw [val_main_v21_apply, val_main_v19_apply, val_main_v14_apply, val_main_v18_apply, val_main_v12_apply, val_main_v13_apply,
    val_main_v10_apply, val_main_v11_apply,
    show idx_main_v10 (idx_main_v12 (ix3 b i j)) = ix2 b i from funext fun a => Fin.ext (by match a with | ⟨0, _⟩ => rfl | ⟨1, _⟩ => rfl),
    show idx_main_v11 (idx_main_v13 (ix3 b i j)) = ix2 b j from funext fun a => Fin.ext (by match a with | ⟨0, _⟩ => rfl | ⟨1, _⟩ => rfl),
    rowSq_apply, rowSq_apply, gram_apply]
  rfl

/-! ## The bandwidth -/

theorem total_apply (b : Fin 32) : val_main_v22 (F := Ideal) x0 x1 (ix1 b) = rowsTotal (refRows x0 x1 b) lo + rowsTotal (refRows x0 x1 b) hi := by
  unfold val_main_v22
  simp only [Host.reduceAdd, Ideal.hostReduceAdd_def]
  rw [hostSum_batch]
  show zero + _ = _
  rw [zero_eq, zero_add, ← total_eq]; unfold total
  exact Finset.sum_congr rfl fun i _ => Finset.sum_congr rfl fun j _ => sqDist_apply x0 x1 b i j

/-- The scale the reference multiplies the bandwidth by: 2 to the power 0. -/
theorem scale_apply (i : S1.Idx) : val_main_v6 (F := Ideal) i = 1 := by
  obtain ⟨k, rfl⟩ : ∃ k : Fin 1, i = ix1 k := ⟨i 0, eq_ix1 i⟩
  rw [val_main_v6_apply, val_main_v5_apply, val_main_v4_apply, val_main_v2_apply, val_main_v0_apply, val_main_v1_apply]
  have hk : k.val = 0 := by omega
  show Ideal.pow two (((IntOp.subi (BitVec.ofNat 32 k.val) (0#32)).toInt : ℝ) : EReal) = 1
  rw [hk]
  have h0 : (IntOp.subi (BitVec.ofNat 32 0) (0#32) : BitVec 32).toInt = 0 := by decide
  rw [h0]
  exact_mod_cast two_pow_zero

theorem bandwidth_apply (b : Fin 32) (u : Fin 1) : val_main_v28 (F := Ideal) x0 x1 (ix2 b u) = bandwidth (refRows x0 x1 b) := by
  rw [val_main_v28_apply, val_main_v26_apply, val_main_v27_apply, val_main_v25_apply, val_main_v24_apply, scale_apply,
    show idx_main_v26 (ix2 b u) = ix1 b from funext fun a => Fin.ext (by match a with | ⟨0, _⟩ => rfl), total_apply]
  show Ideal.div _ nPairs * 1 = _
  rw [mul_one]; rfl

/-! ## The kernel matrix and its three blocks -/

theorem ker_apply (b : Fin 32) (i j : Fin 2048) :
    val_main_v35 (F := Ideal) x0 x1 (ix3 b i j) = ker (refRows x0 x1 b) (bandwidth (refRows x0 x1 b)) i j := by
  rw [val_main_v35_apply]
  show zero + _ = _
  rw [zero_eq, zero_add, Fin.sum_univ_one, val_main_v34_apply, val_main_v33_apply, val_main_v30_apply, val_main_v29_apply,
    val_main_v32_apply, val_main_v31_apply,
    show idx_main_v29 (idx_main_v35 (ix3 b i j) 0) = ix3 b i j from funext fun a => Fin.ext (by match a with | ⟨0, _⟩ => rfl | ⟨1, _⟩ => rfl | ⟨2, _⟩ => rfl),
    show idx_main_v31 (idx_main_v32 (idx_main_v35 (ix3 b i j) 0)) = ix2 b (0 : Fin 1) from funext fun a => Fin.ext (by match a with | ⟨0, _⟩ => rfl | ⟨1, _⟩ => rfl),
    sqDist_apply, bandwidth_apply]
  rfl

theorem blockXX_apply (b : Fin 32) : val_main_v37 (F := Ideal) x0 x1 (ix1 b) = blockSum (refRows x0 x1 b) (bandwidth (refRows x0 x1 b)) lo lo := by
  unfold val_main_v37
  simp only [Host.reduceAdd, Ideal.hostReduceAdd_def]
  rw [hostSum_batch]
  show zero + _ = _
  rw [zero_eq, zero_add]; unfold blockSum
  refine Finset.sum_congr rfl fun p _ => Finset.sum_congr rfl fun q _ => ?_
  rw [val_main_v36_apply, show idx_main_v36 (ix3 b p q) = ix3 b (lo p) (lo q) from funext fun a => Fin.ext (by match a with | ⟨0, _⟩ => rfl | ⟨1, _⟩ => rfl | ⟨2, _⟩ => rfl), ker_apply]

theorem blockXY_apply (b : Fin 32) : val_main_v41 (F := Ideal) x0 x1 (ix1 b) = blockSum (refRows x0 x1 b) (bandwidth (refRows x0 x1 b)) lo hi := by
  unfold val_main_v41
  simp only [Host.reduceAdd, Ideal.hostReduceAdd_def]
  rw [hostSum_batch]
  show zero + _ = _
  rw [zero_eq, zero_add]; unfold blockSum
  refine Finset.sum_congr rfl fun p _ => Finset.sum_congr rfl fun q _ => ?_
  rw [val_main_v40_apply, show idx_main_v40 (ix3 b p q) = ix3 b (lo p) (hi q) from funext fun a => Fin.ext (by match a with | ⟨0, _⟩ => rfl | ⟨1, _⟩ => rfl | ⟨2, _⟩ => rfl), ker_apply]

theorem blockYY_apply (b : Fin 32) : val_main_v45 (F := Ideal) x0 x1 (ix1 b) = blockSum (refRows x0 x1 b) (bandwidth (refRows x0 x1 b)) hi hi := by
  unfold val_main_v45
  simp only [Host.reduceAdd, Ideal.hostReduceAdd_def]
  rw [hostSum_batch]
  show zero + _ = _
  rw [zero_eq, zero_add]; unfold blockSum
  refine Finset.sum_congr rfl fun p _ => Finset.sum_congr rfl fun q _ => ?_
  rw [val_main_v44_apply, show idx_main_v44 (ix3 b p q) = ix3 b (hi p) (hi q) from funext fun a => Fin.ext (by match a with | ⟨0, _⟩ => rfl | ⟨1, _⟩ => rfl | ⟨2, _⟩ => rfl), ker_apply]

/-! ## The result -/

theorem perBatch_apply (b : Fin 32) : val_main_v51 (F := Ideal) x0 x1 (ix1 b) = mmdTermwise (refRows x0 x1 b) := by
  rw [val_main_v51_apply, val_main_v50_apply, val_main_v49_apply, val_main_v39_apply, val_main_v43_apply, val_main_v47_apply,
    blockXX_apply, blockXY_apply, blockYY_apply]
  rfl

def refResult : EReal := zero + ∑ b : Fin 32, mmdTermwise (refRows x0 x1 b)

def vecEquiv : S32.Idx ≃ Fin 32 where
  toFun i := ⟨(i 0).val, (i 0).isLt⟩
  invFun b := ix1 b
  left_inv i := by funext a; match a with | ⟨0, _⟩ => rfl
  right_inv _ := rfl

theorem result_eq : val_main_v52 (F := Ideal) x0 x1 = fun _ => refResult x0 x1 := by
  funext i
  rw [val_main_v52_apply]
  show zero + _ = _
  unfold refResult
  refine congrArg (zero + ·) ?_
  refine (Equiv.sum_comp vecEquiv.symm (val_main_v51 (F := Ideal) x0 x1)).symm.trans ?_
  exact Finset.sum_congr rfl fun b _ => perBatch_apply x0 x1 b

end Cert.ReferenceIdeal.RefValue

end
-- ==== Proof.lean ====
/-
  A maximum-mean-discrepancy estimate with a Gaussian kernel whose bandwidth is the mean clamped squared distance,
  summed over 32 independent batches. For one batch, with the samples X and Y stacked as 2048 rows z of 128 entries:
  d²(i, j) = max (|z i|² + |z j|² − 2 z i · z j) 0, bw = Σ_i Σ_j d²(i, j) / (n² − n), k(i, j) = exp (−d²(i, j) / bw), and
  the discrepancy is mean k over X×X − 2 · mean k over X×Y + mean k over Y×Y.

  The kernel walks each batch in four phases over one scratch cell and one output cell: the X rows' total distance,
  then the Y rows' added and the division by n² − n, then (XX − 2·XY) / S², then + YY / S²; the output block is written
  back after the fourth phase, and the host sums the 32 cells. The reference computes, for all batches at once,
  XX/S² − 2·(XY/S²) + YY/S², with the bandwidth multiplied by 2⁰, and sums. Over the extended reals the two are one
  function of the argument arrays: the sums are the same sums differently grouped (addition is commutative and
  associative there), 2⁰ is 1, and division by the positive real S² distributes over the difference. The inputs'
  finiteness is not used.

  The three frames: each kernel program by its body run phase by phase at every grid point (the same proof at the
  word-level instance and at the extended reals), the reference by its run read back. The idealization rewrote no
  operation, so it preserves the kernel trivially.
-/
import proofs.«107039_j55843164782710_1_alg».proof.Defs
import proofs.«107039_j55843164782710_1_alg».proof.Proof.Gen.Kernel
import proofs.«107039_j55843164782710_1_alg».proof.Proof.Gen.KernelIdeal
import proofs.«107039_j55843164782710_1_alg».proof.Proof.Gen.ReferenceIdeal
import proofs.«107039_j55843164782710_1_alg».proof.Proof.Gen.Pre_finite_inputs
import proofs.«107039_j55843164782710_1_alg».proof.Proof.KbFrame
import proofs.«107039_j55843164782710_1_alg».proof.Proof.KiFinal
import proofs.«107039_j55843164782710_1_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx Cert.MmdSpec

theorem frame_kernel : Cert.frame_Kernel := fun m ρ _ => Cert.Kernel.Mmd.frame (F := Bits) m ρ

theorem frame_kernelIdeal : Cert.frame_KernelIdeal := fun m ρ _ => Cert.KernelIdeal.Mmd.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's stacked rows of batch `b` are the reference's: both are the two argument arrays' rows at batch `b`. -/
theorem rows_agree (m : (ℓ : Loc Cert.KernelIdeal.nD Cert.KernelIdeal.τ Cert.KernelIdeal.sig) → Buf (Elt Ideal) ℓ)
    (c : Dev Cert.KernelIdeal.nD) (b : Fin 32) :
    Cert.KernelIdeal.MmdFinal.batchRows m c b
      = Cert.ReferenceIdeal.RefValue.refRows (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) b := by
  funext i d
  unfold Cert.KernelIdeal.MmdFinal.batchRows Cert.KernelIdeal.MmdValue.rows Cert.ReferenceIdeal.RefValue.refRows
    Cert.KernelIdeal.MmdFinal.xBlock Cert.KernelIdeal.MmdFinal.yBlock
  split <;> rfl

theorem algebraic : Cert.algebraic_KernelIdeal_ReferenceIdeal := by
  intro m ρ m' ρ' _ hagree
  refine ⟨fun c => (fun _ => Cert.KernelIdeal.MmdFinal.kernelResult m c), Cert.KernelIdeal.MmdFinal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.ReferenceIdeal.RefValue.result_eq, (hagree c).1, (hagree c).2]
  funext _
  unfold Cert.KernelIdeal.MmdFinal.kernelResult Cert.ReferenceIdeal.RefValue.refResult
  refine congrArg (zero + ·) (Finset.sum_congr rfl fun b _ => ?_)
  rw [mmdGrouped_eq, rows_agree]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
